-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S1x4096x256 : Shape := ⟨3, ![1, 4096, 256]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S1x4096x256 : S_.BroadcastsInDim S1x4096x256 (![] : Fin 0 → Fin S1x4096x256.rank)
  reducesTo_S1x4096x256_S_d0_1_2 : S1x4096x256.ReducesTo [0, 1, 2] S_

variable [Facts]

def fn_part1 {F : FTy → Type} [FloatOps F] (main_arg4 : FVec F S1x4096x256 .f32) (main_v13 : IVec S_ 1) (main_v16 : IVec S1x4096x256 1) : IVec S_ 1 :=
  let main_c_5 : IVec S_ 1 := constantI S_ 1 1#1
  let main_v17 : IVec S_ 1 := (fun x v => Host.reduce IntOp.andi x v reducesTo_S1x4096x256_S_d0_1_2 h_S_) main_v16 main_c_5
  let main_v18 : IVec S_ 1 := andi main_v13 main_v17
  let main_v19 : FVec F S1x4096x256 .f32 := Host.absf main_arg4
  let main_cst_6 : FVec F S_ .f32 := constant S_ .f32 0x7F800000#32
  let main_v20 : FVec F S1x4096x256 .f32 := broadcastInDim S1x4096x256 ![] bcast_S_S1x4096x256 main_cst_6
  let main_v21 : IVec S1x4096x256 1 := cmpf .olt main_v19 main_v20
  let main_c_7 : IVec S_ 1 := constantI S_ 1 1#1
  let main_v22 : IVec S_ 1 := (fun x v => Host.reduce IntOp.andi x v reducesTo_S1x4096x256_S_d0_1_2 h_S_) main_v21 main_c_7
  let main_v23 : IVec S_ 1 := andi main_v18 main_v22
  main_v23

def fn {F : FTy → Type} [FloatOps F] (main_arg0 : FVec F S8x256x64x64 .f32) (main_arg1 : FVec F S8x256x64x64 .f32) (main_arg2 : FVec F S8x256x64x64 .f32) (main_arg3 : FVec F S1x4096x256 .f32) (main_arg4 : FVec F S1x4096x256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S8x256x64x64 .f32 := Host.absf main_arg2
  let main_cst_2 : FVec F S_ .f32 := constant S_ .f32 0x7F800000#32
  let main_v10 : FVec F S8x256x64x64 .f32 := broadcastInDim S8x256x64x64 ![] bcast_S_S8x256x64x64 main_cst_2
  let main_v11 : IVec S8x256x64x64 1 := cmpf .olt main_v9 main_v10
  let main_c_3 : IVec S_ 1 := constantI S_ 1 1#1
  let main_v12 : IVec S_ 1 := (fun x v => Host.reduce IntOp.andi x v reducesTo_S8x256x64x64_S_d0_1_2_3 h_S_) main_v11 main_c_3
  let main_v13 : IVec S_ 1 := andi main_v8 main_v12
  let main_v14 : FVec F S1x4096x256 .f32 := Host.absf main_arg3
  let main_cst_4 : FVec F S_ .f32 := constant S_ .f32 0x7F800000#32
  let main_v15 : FVec F S1x4096x256 .f32 := broadcastInDim S1x4096x256 ![] bcast_S_S1x4096x256 main_cst_4
  let main_v16 : IVec S1x4096x256 1 := cmpf .olt main_v14 main_v15
  fn_part1 (F := F) main_arg4 main_v13 main_v16
-- ==== Kernel.lean ====
abbrev S8x256x64x64 : Shape := ⟨4, ![8, 256, 64, 64]⟩
abbrev S1x4096x256 : Shape := ⟨3, ![1, 4096, 256]⟩
abbrev S8x256x4096 : Shape := ⟨3, ![8, 256, 4096]⟩
abbrev S4096x256 : Shape := ⟨2, ![4096, 256]⟩
abbrev S256x4096 : Shape := ⟨2, ![256, 4096]⟩
abbrev S1x256x2048 : Shape := ⟨3, ![1, 256, 2048]⟩
abbrev S1x256x256 : Shape := ⟨3, ![1, 256, 256]⟩
abbrev S256x2048 : Shape := ⟨2, ![256, 2048]⟩
abbrev S256x256 : Shape := ⟨2, ![256, 256]⟩
abbrev S2048x1 : Shape := ⟨2, ![2048, 1]⟩
abbrev S2048x256 : Shape := ⟨2, ![2048, 256]⟩
abbrev S2048 : Shape := ⟨1, ![2048]⟩

abbrev nBuf : Space → Nat
  | .hbm => 14
  | .vmem => 15
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S8x256x64x64, .f32⟩
  | .hbm, ⟨3, _⟩ => ⟨S1x4096x256, .f32⟩
  | .hbm, ⟨4, _⟩ => ⟨S1x4096x256, .f32⟩
  | .hbm, ⟨5, _⟩ => ⟨S8x256x4096, .f32⟩
  | .hbm, ⟨6, _⟩ => ⟨S8x256x4096, .f32⟩
  | .hbm, ⟨7, _⟩ => ⟨S8x256x4096, .f32⟩
  | .hbm, ⟨8, _⟩ => ⟨S4096x256, .f32⟩
  | .hbm, ⟨9, _⟩ => ⟨S256x4096, .f32⟩
  | .hbm, ⟨10, _⟩ => ⟨S4096x256, .f32⟩
  | .hbm, ⟨11, _⟩ => ⟨S256x4096, .f32⟩
  | .hbm, ⟨12, _⟩ => ⟨S8x256x4096, .f32⟩
  | .hbm, ⟨13, _⟩ => ⟨S8x256x64x64, .f32⟩
  | .local _ .vmem, ⟨0, _⟩ => ⟨S1x256x2048, .f32⟩
  | .local _ .vmem, ⟨1, _⟩ => ⟨S1x256x2048, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x2048, .f32⟩
  | .local _ .vmem, ⟨7, _⟩ => ⟨S256x2048, .f32⟩
  | .local _ .vmem, ⟨8, _⟩ => ⟨S256x256, .f32⟩
  | .local _ .vmem, ⟨9, _⟩ => ⟨S256x256, .f32⟩
  | .local _ .vmem, ⟨10, _⟩ => ⟨S1x256x2048, .f32⟩
  | .local _ .vmem, ⟨11, _⟩ => ⟨S1x256x2048, .f32⟩
  | .local _ .vmem, ⟨12, _⟩ => ⟨S2048x1, .f32⟩
  | .local _ .vmem, ⟨13, _⟩ => ⟨S2048x1, .f32⟩
  | .local _ .vmem, ⟨14, _⟩ => ⟨S2048x256, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v51 : BitVec 1 := Scalar.cmpi .eq arg2 c15_i32
  let v52 : BitVec 32 := Scalar.extui v51
  let c0_i32_31 : BitVec 32 := 0#32
  let v53 : BitVec 1 := Scalar.cmpi .ne v52 c0_i32_31
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x256x64x64_S8x256x4096 : S8x256x64x64.ShapeCasts S8x256x4096
  shapeCasts_S1x4096x256_S4096x256 : S1x4096x256.ShapeCasts S4096x256
  transposes_S4096x256_S256x4096_1_0 : S4096x256.Transposes [1, 0] S256x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  reduces_S2048x256_S2048 : S2048x256.Reduces [1] S2048
  shapeCasts_S2048_S2048x1 : S2048.ShapeCasts S2048x1
  broadcasts_S2048x1_S2048x256 : S2048x1.Broadcasts S2048x256
  transposes_S2048x256_p1_0_S256x2048 : S2048x256.Transposes [1, 0] S256x2048
  shapeCasts_S256x2048_S1x256x2048 : S256x2048.ShapeCasts S1x256x2048
  shapeCasts_S8x256x4096_S8x256x64x64 : S8x256x4096.ShapeCasts S8x256x64x64
  dot_S256x2048_S256x256_S2048x256_0_0_1_1_n_n_wf : DotDims.WF S256x2048 S256x256 S2048x256 [0] [0] [1] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x4096.size a
  hwx0_0 : ∀ i : grid0.Coords, EltTy.bits .f32 = 32 ∨ (Rect.block (s := S8x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x4096.size a
  hwx0_1 : ∀ i : grid0.Coords, EltTy.bits .f32 = 32 ∨ (Rect.block (s := S8x256x4096) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x4096.size a
  hwx0_2 : ∀ i : grid0.Coords, EltTy.bits .f32 = 32 ∨ (Rect.block (s := S8x256x4096) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x4096.size a
  hwx0_3 : ∀ i : grid0.Coords, EltTy.bits .f32 = 32 ∨ (Rect.block (s := S256x4096) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x4096.size a
  hwx0_4 : ∀ i : grid0.Coords, EltTy.bits .f32 = 32 ∨ (Rect.block (s := S256x4096) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x256x4096.size a
  hwx0_5 : ∀ i : grid0.Coords, EltTy.bits .f32 = 32 ∨ (Rect.block (s := S8x256x4096) S1x256x2048.size (cc0_transform_5 i) (hinb0_5 i)).WholeWords (EltTy.packing .f32)

variable [Facts₀]

def dot_S256x2048_S256x256_S2048x256_0_0_1_1_n_n : DotDims S256x2048 S256x256 S2048x256 where
  lhsContracting := [0]
  rhsContracting := [0]
  lhsNonContracting := [1]
  rhsNonContracting := [1]
  lhsBatch := []
  rhsBatch := []
  wf := dot_S256x2048_S256x256_S2048x256_0_0_1_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x256x64x64 : Shape := ⟨4, ![8, 256, 64, 64]⟩
abbrev S1x4096x256 : Shape := ⟨3, ![1, 4096, 256]⟩
abbrev S_ : Shape := ⟨0, ![]⟩
abbrev S8x256x4096 : Shape := ⟨3, ![8, 256, 4096]⟩
abbrev S8x4096x256 : Shape := ⟨3, ![8, 4096, 256]⟩
abbrev S8x4096x4096 : Shape := ⟨3, ![8, 4096, 4096]⟩
abbrev S8x4096 : Shape := ⟨2, ![8, 4096]⟩
abbrev S8x4096x1 : Shape := ⟨3, ![8, 4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S8x256x64x64, .f32⟩
  | .hbm, ⟨3, _⟩ => ⟨S1x4096x256, .f32⟩
  | .hbm, ⟨4, _⟩ => ⟨S1x4096x256, .f32⟩
  | .hbm, ⟨5, _⟩ => ⟨S_, .f32⟩
  | .hbm, ⟨6, _⟩ => ⟨S_, .f32⟩
  | .hbm, ⟨7, _⟩ => ⟨S8x256x4096, .f32⟩
  | .hbm, ⟨8, _⟩ => ⟨S8x4096x256, .f32⟩
  | .hbm, ⟨9, _⟩ => ⟨S8x4096x256, .f32⟩
  | .hbm, ⟨10, _⟩ => ⟨S8x4096x256, .f32⟩
  | .hbm, ⟨11, _⟩ => ⟨S8x256x4096, .f32⟩
  | .hbm, ⟨12, _⟩ => ⟨S8x4096x256, .f32⟩
  | .hbm, ⟨13, _⟩ => ⟨S8x4096x256, .f32⟩
  | .hbm, ⟨14, _⟩ => ⟨S8x4096x256, .f32⟩
  | .hbm, ⟨15, _⟩ => ⟨S8x256x4096, .f32⟩
  | .hbm, ⟨16, _⟩ => ⟨S8x4096x256, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x256, .f32⟩
  | .hbm, ⟨35, _⟩ => ⟨S8x256x4096, .f32⟩
  | .hbm, ⟨36, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  bcast_S1x4096x256_S8x4096x256_0_1_2 : S1x4096x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x256_S8x256x4096_0_2_1 : S8x4096x256.Transposes [0, 2, 1] S8x256x4096
  shapeCasts_S8x256x4096_S8x256x64x64 : S8x256x4096.ShapeCasts S8x256x64x64
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.Softmax.lean ====
/-
  Softmax-weighted averages over the reals, and the one-block update of their running form.

  For scores `d k` and values `w k` the softmax-weighted average is
  `(∑ k, exp (d k) * w k) / ∑ k, exp (d k)`. Subtracting one real `μ` from every score changes neither
  numerator-over-denominator (`wavg_shift`) nor the sum of the normalised weights times the values
  (`wavg_normalized`): `exp (d k - μ) = exp (d k) * exp (-μ)` and the common factor cancels. A running
  sum kept relative to `μ` is moved to another reference `μ'` by the factor `exp (μ - μ')` (`rescale_sum`).
  The 4096 keys are 16 blocks of 256 (`sum_blocks`). Over the extended reals a finite sum of reals is the real
  sum (`coe_sum`) and a maximum of finitely many reals, started from anything below `⊤`, is a real
  (`fold_max_real`).
-/
import Mathlib

noncomputable section

namespace Cert.Softmax

open Finset

/-- The average of `w` under the weights `exp (d k)`, normalised by their sum. -/
def wavg {ι : Type*} [Fintype ι] (d w : ι → ℝ) : ℝ :=
  (∑ k, Real.exp (d k) * w k) / ∑ k, Real.exp (d k)

/-- A sum of exponentials over a nonempty index type is positive. -/
theorem sum_exp_pos {ι : Type*} [Fintype ι] [Nonempty ι] (d : ι → ℝ) : 0 < ∑ k, Real.exp (d k) := by
  exact Finset.sum_pos (fun k _ => Real.exp_pos (d k)) Finset.univ_nonempty

/-- Shifting every score by `μ` leaves the quotient unchanged. -/
theorem wavg_shift {ι : Type*} [Fintype ι] [Nonempty ι] (d w : ι → ℝ) (μ : ℝ) :
    (∑ k, Real.exp (d k - μ) * w k) / (∑ k, Real.exp (d k - μ)) = wavg d w := by
  unfold wavg
  have h1 : ∀ k, Real.exp (d k - μ) = Real.exp (d k) * Real.exp (-μ) := by
    intro k
    rw [sub_eq_add_neg, Real.exp_add]
  have hn : (∑ k, Real.exp (d k - μ) * w k) = (∑ k, Real.exp (d k) * w k) * Real.exp (-μ) := by
    rw [Finset.sum_mul]
    apply Finset.sum_congr rfl
    intro k _
    rw [h1]
    ring
  have hd : (∑ k, Real.exp (d k - μ)) = (∑ k, Real.exp (d k)) * Real.exp (-μ) := by
    rw [Finset.sum_mul]
    apply Finset.sum_congr rfl
    intro k _
    rw [h1]
  rw [hn, hd, mul_div_mul_right _ _ (Real.exp_pos _).ne']

/-- The normalised weights `exp (d k - μ) / ∑ j, exp (d j - μ)` times the values sum to the same average. -/
theorem wavg_normalized {ι : Type*} [Fintype ι] [Nonempty ι] (d w : ι → ℝ) (μ : ℝ) :
    ∑ k, Real.exp (d k - μ) / (∑ j, Real.exp (d j - μ)) * w k = wavg d w := by
  rw [← wavg_shift d w μ, Finset.sum_div]
  apply Finset.sum_congr rfl
  intro k _
  rw [div_mul_eq_mul_div]

/-- A sum kept relative to `μ` is moved to `μ'` by the factor `exp (μ - μ')`. -/
theorem rescale_sum {ι : Type*} (s : Finset ι) (f w : ι → ℝ) (μ μ' : ℝ) :
    Real.exp (μ - μ') * ∑ i ∈ s, Real.exp (f i - μ) * w i = ∑ i ∈ s, Real.exp (f i - μ') * w i := by
  rw [Finset.mul_sum]
  apply Finset.sum_congr rfl
  intro i _
  have h : μ - μ' + (f i - μ) = f i - μ' := by ring
  rw [← mul_assoc, ← Real.exp_add, h]

/-- The 4096 keys as 16 blocks of 256: key `256 * a + j` is key `j` of block `a`. -/
theorem sum_blocks (g : ℕ → ℝ) :
    ∑ k : Fin 4096, g k.val = ∑ a ∈ range 16, ∑ j : Fin 256, g (256 * a + j.val) := by
  have h := (Equiv.sum_comp (finProdFinEquiv : Fin 16 × Fin 256 ≃ Fin (16 * 256))
    (fun k => g k.val)).symm
  rw [Fintype.sum_prod_type] at h
  simp only [finProdFinEquiv_apply_val] at h
  rw [← Fin.sum_univ_eq_sum_range (fun a => ∑ j : Fin 256, g (256 * a + j.val)) 16]
  refine h.trans ?_
  apply Finset.sum_congr rfl
  intro a _
  apply Finset.sum_congr rfl
  intro j _
  rw [Nat.add_comm]

/-- Over the extended reals a finite sum of reals is the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of finitely many (at least one) reals, started from a value below `⊤`, is a real. -/
theorem fold_max_real {n : ℕ} (hn : 0 < n) (f : Fin n → EReal) (hf : ∀ k, ∃ r : ℝ, f k = (r : EReal))
    (b : EReal) (hb : b ≠ ⊤) : ∃ r : ℝ, (univ : Finset (Fin n)).fold max b f = (r : EReal) := by
  have h1 : ⊥ < (univ : Finset (Fin n)).fold max b f := by
    rw [Finset.lt_fold_max]
    right
    obtain ⟨r, hr⟩ := hf ⟨0, hn⟩
    exact ⟨⟨0, hn⟩, Finset.mem_univ _, by rw [hr]; exact EReal.bot_lt_coe r⟩
  have h2 : (univ : Finset (Fin n)).fold max b f < ⊤ := by
    rw [Finset.fold_max_lt]
    refine ⟨lt_top_iff_ne_top.mpr hb, fun k _ => ?_⟩
    obtain ⟨r, hr⟩ := hf k
    rw [hr]
    exact EReal.coe_lt_top r
  exact ⟨((univ : Finset (Fin n)).fold max b f).toReal, (EReal.coe_toReal h2.ne h1.ne').symm⟩

end Cert.Softmax

end
-- ==== Proof.Spec.lean ====
/-
  Attention with additive positional terms, over channel-first arrays: the one function both programs compute.

  `q`, `k`, `v` are indexed (batch, channel, position) over [8, 256, 4096]; `qp`, `kp` are the positional tables
  indexed (0, position, channel) over [1, 4096, 256]. For batch `b`, query position `n` and key position `j` the
  score is `(∑ c, (q b c n + qp n c) * (k b c j + kp j c)) / 16` (`16 = sqrt 256`, the square root of the channel
  count); the result at (b, c, n) is the softmax-weighted average over the 4096 keys `j` of `v b c j`.
  The arrays are read through `EReal.toReal`: on finite inputs that is their value.
-/
import Idealize.ShloMosaic.PureOps.Ideal
import Idealize.ShloMosaic.Lib.ValueIdx
import proofs.«127803_j89962384982254_2_alg».proof.Proof.Softmax

noncomputable section

namespace Cert.Attn

open Idealize.ShloMosaic Idealize.ShloMosaic.ValueIdx Cert.Softmax

/-- (batch, channel, position). -/
abbrev Sbcn : Shape := ⟨3, ![8, 256, 4096]⟩
/-- (0, position, channel): a positional table. -/
abbrev Spos : Shape := ⟨3, ![1, 4096, 256]⟩

/-- The query at (batch `b`, position `n`, channel `c`) with its positional term, as a real. -/
def qrow (q : Sbcn.Idx → EReal) (qp : Spos.Idx → EReal) (b : Fin 8) (n : Fin 4096) (c : Fin 256) : ℝ :=
  (q (ix3 b c n)).toReal + (qp (ix3 0 n c)).toReal

/-- The scaled score of query position `n` against key position `j` in batch `b`. -/
def score (q k : Sbcn.Idx → EReal) (qp kp : Spos.Idx → EReal) (b : Fin 8) (n j : Fin 4096) : ℝ :=
  (∑ c : Fin 256, qrow q qp b n c * qrow k kp b j c) / 16

/-- The attention output at (batch, channel, position). -/
def attn (q k v : Sbcn.Idx → EReal) (qp kp : Spos.Idx → EReal) : Sbcn.Idx → EReal := fun i =>
  ((wavg (fun j : Fin 4096 => score q k qp kp (i 0) (i 2) j) (fun j : Fin 4096 => (v (ix3 (i 0) (i 1) j)).toReal) : ℝ) : EReal)

/-- Every entry of an array is a real. -/
def Finite {s : Shape} (x : s.Idx → EReal) : Prop := ∀ i, ∃ r : ℝ, x i = (r : EReal)

theorem Finite.coe_toReal {s : Shape} {x : s.Idx → EReal} (h : Finite x) (i : s.Idx) : ((x i).toReal : EReal) = x i := by
  obtain ⟨r, hr⟩ := h i
  rw [hr, EReal.toReal_coe]

end Cert.Attn

end
-- ==== Proof.FiniteInputs.lean ====
/-
  From the precondition to finiteness. The precondition evaluates, for each of the five argument arrays,
  "every entry has absolute value below +inf" and takes the conjunction; it is stated to be true. Over the
  extended reals the absolute value is `max x (-x)`, the pattern of +inf is `⊤`, and `max x (-x) < ⊤` excludes
  exactly `x = ⊥` and `x = ⊤`: so every entry of every argument array is a real.
-/
import proofs.«127803_j89962384982254_2_alg».proof.Defs
import proofs.«127803_j89962384982254_2_alg».proof.Proof.Spec
import Idealize.ShloMosaic.Lib.ReduceAll
import Idealize.ShloMosaic.Lib.ValueIdx

noncomputable section

namespace Cert.FiniteInputs

open Idealize.ShloMosaic Idealize.SL.Sem

/-- The pattern `0x7F800000` of +inf is `⊤`. -/
theorem ofBits_pos_inf : Ideal.ofBits .f32 0x7F800000#32 = (⊤ : EReal) := by
  simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | top => simp at h
  | coe r => exact ⟨r, rfl⟩

/-- A boolean read as an `i1` word is 1 exactly when it is true. -/
theorem ofBool_eq_one (b : Bool) : BitVec.ofBool b = 1#1 ↔ b = true := by cases b <;> decide

/-- The rank-0 shape has one index. -/
instance : Subsingleton Cert.Pre_finite_inputs.S_.Idx := ⟨fun a b => funext fun d => d.elim0⟩

/-- One conjunct of the precondition, for any shape: if comparing `|x|` entrywise below the broadcast pattern of
    +inf and reducing by `and` over every axis gives 1, every entry of `x` is a real. -/
theorem finite_of_all {s : Shape} {axes : List (Fin s.rank)} (x : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (init : IVec Cert.Pre_finite_inputs.S_ 1)
    (e : Host.reduce IntOp.andi (cmpf .olt (Host.absf x)
          (broadcastInDim s dims hb (constant (F := Ideal) Cert.Pre_finite_inputs.S_ .f32 0x7F800000#32))) init hr hu ValueIdx.ix0 = 1#1) :
    Cert.Attn.Finite x := by
  intro i
  have h1 := Host.reduce_andi_all _ init hr hu ValueIdx.ix0 e i
  have h2 : BitVec.ofBool (decide (max (x i) (-(x i)) < Ideal.ofBits .f32 0x7F800000#32)) = 1#1 := h1
  rw [ofBits_pos_inf, ofBool_eq_one, decide_eq_true_eq] at h2
  exact real_of_abs_lt_top _ h2

/-- Under the precondition every entry of each of the five argument arrays is a real. -/
theorem finite_of_pre [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Attn.Finite (m ((c.tc : Thread Cert.KernelIdeal.nD Cert.KernelIdeal.τ).loc Cert.KernelIdeal.main_arg0)) ∧ Cert.Attn.Finite (m ((c.tc : Thread Cert.KernelIdeal.nD Cert.KernelIdeal.τ).loc Cert.KernelIdeal.main_arg1)) ∧ Cert.Attn.Finite (m ((c.tc : Thread Cert.KernelIdeal.nD Cert.KernelIdeal.τ).loc Cert.KernelIdeal.main_arg2)) ∧ Cert.Attn.Finite (m ((c.tc : Thread Cert.KernelIdeal.nD Cert.KernelIdeal.τ).loc Cert.KernelIdeal.main_arg3)) ∧ Cert.Attn.Finite (m ((c.tc : Thread Cert.KernelIdeal.nD Cert.KernelIdeal.τ).loc Cert.KernelIdeal.main_arg4)) := by
  have e := congrFun (h c) ValueIdx.ix0
  unfold Cert.Pre_finite_inputs.fn Cert.Pre_finite_inputs.fn_part1 at e
  dsimp only at e
  simp only [andi, IntOp.andi_eq_one] at e
  obtain ⟨⟨⟨⟨e0, e1⟩, e2⟩, e3⟩, e4⟩ := e
  exact ⟨finite_of_all _ _ _ _ _ _ e0, finite_of_all _ _ _ _ _ _ e1, finite_of_all _ _ _ _ _ _ e2,
    finite_of_all _ _ _ _ _ _ e3, finite_of_all _ _ _ _ _ _ e4⟩

end Cert.FiniteInputs

end
-- ==== Proof.Consts.lean ====
/-
  The float literals of the two programs as the extended reals they denote: `+0.0` is `0`, `0.0625` is `1/16`,
  `256.0` is `256` (whose square root is `16`), and the pattern of `-inf` is `⊥`. One module states them all.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_sixteenth : Ideal.ofBits .f32 0x3D800000#32 = ((1 / 16 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-- The square root of `256` is `16`. -/
theorem sqrt_256 : Ideal.sqrt ((256 : ℝ) : EReal) = ((16 : ℝ) : EReal) := by
  have h : Real.sqrt 256 = 16 := by
    rw [show (256 : ℝ) = 16 ^ 2 by norm_num]
    exact Real.sqrt_sq (by norm_num)
  show (if (256 : ℝ) < 0 then (⊥ : EReal) else ((Real.sqrt 256 : ℝ) : EReal)) = _
  rw [if_neg (by norm_num), h]

end Cert.Consts

end
-- ==== Proof.RefValue.lean ====
/-
  The reference program computes the attention function: its last array before the final reshape, read index by
  index, is the softmax-weighted average of the values under the scaled scores.

  Stage by stage, for batch `b`, query position `n`, key position `j` and channel `c`: the transposed query plus its
  positional term is the real `qrow`; the contraction over the 256 channels divided by `sqrt 256 = 16` is the real
  `score`; the running maximum over the keys is some real `μ`; the exponentials `exp (score - μ)` are reals whose sum
  over the keys is positive; the quotient is the normalised weight, and the second contraction with the transposed
  values is the weighted average, independent of `μ`.
-/
import proofs.«127803_j89962384982254_2_alg».proof.Proof.Gen.ReferenceIdeal.Read
import proofs.«127803_j89962384982254_2_alg».proof.Proof.Spec
import proofs.«127803_j89962384982254_2_alg».proof.Proof.Consts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- An array over [8, 256, 64, 64] read over [8, 256, 4096]: the same entries in row-major order. -/
abbrev flat (x : (⟨S8x256x64x64, .f32⟩ : BufTy).Contents (Elt Ideal)) : S8x256x4096.Idx → EReal :=
  shapeCast S8x256x4096 x shapeCasts_S8x256x64x64_S8x256x4096

/-- Re-indexing keeps every entry a real. -/
theorem flat_finite {x : (⟨S8x256x64x64, .f32⟩ : BufTy).Contents (Elt Ideal)} (h : Attn.Finite x) : Attn.Finite (flat x) :=
  fun i => h (Shape.reshapeEquiv shapeCasts_S8x256x64x64_S8x256x4096 i)

/-! ## The index maps of the stages at coordinates -/

theorem idx_v2_ix3 (b : Fin 8) (n : Fin 4096) (c : Fin 256) : Read.idx_main_v2 (ix3 b n c) = ix3 b c n :=
  funext fun a => Fin.ext (by match a with | ⟨0, _⟩ => rfl | ⟨1, _⟩ => rfl | ⟨2, _⟩ => rfl)
theorem idx_v3_ix3 (b : Fin 8) (n : Fin 4096) (c : Fin 256) : Read.idx_main_v3 (ix3 b n c) = ix3 (0 : Fin 1) n c :=
  funext fun a => Fin.ext (by match a with | ⟨0, _⟩ => rfl | ⟨1, _⟩ => rfl | ⟨2, _⟩ => rfl)
theorem idx_v6_ix3 (b : Fin 8) (n : Fin 4096) (c : Fin 256) : Read.idx_main_v6 (ix3 b n c) = ix3 b c n :=
  funext fun a => Fin.ext (by match a with | ⟨0, _⟩ => rfl | ⟨1, _⟩ => rfl | ⟨2, _⟩ => rfl)
theorem idx_v7_ix3 (b : Fin 8) (n : Fin 4096) (c : Fin 256) : Read.idx_main_v7 (ix3 b n c) = ix3 (0 : Fin 1) n c :=
  funext fun a => Fin.ext (by match a with | ⟨0, _⟩ => rfl | ⟨1, _⟩ => rfl | ⟨2, _⟩ => rfl)
theorem idx_v10_ix3 (b : Fin 8) (n : Fin 4096) (c : Fin 256) : Read.idx_main_v10 (ix3 b n c) = ix3 b c n :=
  funext fun a => Fin.ext (by match a with | ⟨0, _⟩ => rfl | ⟨1, _⟩ => rfl | ⟨2, _⟩ => rfl)
theorem lidx_v11_ix3 (b : Fin 8) (n j : Fin 4096) (k : Fin 256) : Read.lidx_main_v11 (ix3 b n j) k = ix3 b n k :=
  funext fun a => Fin.ext (by match a with | ⟨0, _⟩ => rfl | ⟨1, _⟩ => rfl | ⟨2, _⟩ => rfl)
theorem ridx_v11_ix3 (b : Fin 8) (n j : Fin 4096) (k : Fin 256) : Read.ridx_main_v11 (ix3 b n j) k = ix3 b j k :=
  funext fun a => Fin.ext (by match a with | ⟨0, _⟩ => rfl | ⟨1, _⟩ => rfl | ⟨2, _⟩ => rfl)
theorem idx_v17_v18_ix3 (b : Fin 8) (n j : Fin 4096) : Read.idx_main_v17 (Read.idx_main_v18 (ix3 b n j)) = ix2 b n :=
  funext fun a => Fin.ext (by match a with | ⟨0, _⟩ => rfl | ⟨1, _⟩ => rfl)
theorem idx_v22_v23_ix3 (b : Fin 8) (n j : Fin 4096) : Read.idx_main_v22 (Read.idx_main_v23 (ix3 b n j)) = ix2 b n :=
  funext fun a => Fin.ext (by match a with | ⟨0, _⟩ => rfl | ⟨1, _⟩ => rfl)
theorem idx_v21_ix2 (b : Fin 8) (n k : Fin 4096) : Read.idx_main_v21 (ix2 b n) k = ix3 b n k :=
  funext fun a => Fin.ext (by match a with | ⟨0, _⟩ => rfl | ⟨1, _⟩ => rfl | ⟨2, _⟩ => rfl)
theorem lidx_v25_ix3 (b : Fin 8) (n : Fin 4096) (c : Fin 256) (k : Fin 4096) : Read.lidx_main_v25 (ix3 b n c) k = ix3 b n k :=
  funext fun a => Fin.ext (by match a with | ⟨0, _⟩ => rfl | ⟨1, _⟩ => rfl | ⟨2, _⟩ => rfl)
theorem ridx_v25_ix3 (b : Fin 8) (n : Fin 4096) (c : Fin 256) (k : Fin 4096) : Read.ridx_main_v25 (ix3 b n c) k = ix3 b k c :=
  funext fun a => Fin.ext (by match a with | ⟨0, _⟩ => rfl | ⟨1, _⟩ => rfl | ⟨2, _⟩ => rfl)
theorem idx_v26_ix3 (b : Fin 8) (c : Fin 256) (n : Fin 4096) : Read.idx_main_v26 (ix3 b c n) = ix3 b n c :=
  funext fun a => Fin.ext (by match a with | ⟨0, _⟩ => rfl | ⟨1, _⟩ => rfl | ⟨2, _⟩ => rfl)

section Stages

variable (x0 x1 x2 : (⟨S8x256x64x64, .f32⟩ : BufTy).Contents (Elt Ideal)) (x3 x4 : (⟨S1x4096x256, .f32⟩ : BufTy).Contents (Elt Ideal))

/-! ## Queries and keys with their positional terms -/

/-- The transposed query plus its positional term is the real `qrow`. -/
theorem v4_apply (h0 : Attn.Finite x0) (h3 : Attn.Finite x3) (b : Fin 8) (n : Fin 4096) (c : Fin 256) :
    Read.val_main_v4 (F := Ideal) x0 x3 (ix3 b n c) = ((Attn.qrow (flat x0) x3 b n c : ℝ) : EReal) := by
  rw [Read.val_main_v4_apply, Read.val_main_v2_apply, Read.val_main_v3_apply, idx_v2_ix3, idx_v3_ix3]
  unfold Attn.qrow
  rw [EReal.coe_add, (flat_finite h0).coe_toReal, h3.coe_toReal]
  rfl

/-- The transposed key plus its positional term is the real `qrow` of the key arrays. -/
theorem v8_apply (h1 : Attn.Finite x1) (h4 : Attn.Finite x4) (b : Fin 8) (n : Fin 4096) (c : Fin 256) :
    Read.val_main_v8 (F := Ideal) x1 x4 (ix3 b n c) = ((Attn.qrow (flat x1) x4 b n c : ℝ) : EReal) := by
  rw [Read.val_main_v8_apply, Read.val_main_v6_apply, Read.val_main_v7_apply, idx_v6_ix3, idx_v7_ix3]
  unfold Attn.qrow
  rw [EReal.coe_add, (flat_finite h1).coe_toReal, h4.coe_toReal]
  rfl

/-! ## The scaled scores -/

/-- The contraction over the channels divided by `sqrt 256 = 16` is the real `score`. -/
theorem v13_apply (h0 : Attn.Finite x0) (h1 : Attn.Finite x1) (h3 : Attn.Finite x3) (h4 : Attn.Finite x4)
    (b : Fin 8) (n j : Fin 4096) :
    Read.val_main_v13 (F := Ideal) x0 x1 x3 x4 (ix3 b n j)
      = ((Attn.score (flat x0) (flat x1) x3 x4 b n j : ℝ) : EReal) := by
  rw [Read.val_main_v13_apply, Read.val_main_v11_apply, Read.val_main_v12_apply, Read.val_main_v0_apply,
    Read.val_main_cst_apply]
  simp only [Ideal.hostDivf_def, Ideal.hostUnary_sqrt_def, Ideal.ofBits_def, Consts.ofBits_256, Consts.sqrt_256]
  rw [Ideal.div_coe (by norm_num : (16 : ℝ) ≠ 0)]
  have hs : (∑ k : Fin 256, Read.val_main_v4 (F := Ideal) x0 x3 (Read.lidx_main_v11 (ix3 b n j) k)
        * Read.val_main_v8 (F := Ideal) x1 x4 (Read.ridx_main_v11 (ix3 b n j) k))
      = ((∑ k : Fin 256, Attn.qrow (flat x0) x3 b n k * Attn.qrow (flat x1) x4 b j k : ℝ) : EReal) := by
    refine (Finset.sum_congr rfl fun k _ => ?_).trans
      (Softmax.coe_sum Finset.univ fun k : Fin 256 => Attn.qrow (flat x0) x3 b n k * Attn.qrow (flat x1) x4 b j k)
    rw [lidx_v11_ix3, ridx_v11_ix3, v4_apply x0 x3 h0 h3, v8_apply x1 x4 h1 h4, ← EReal.coe_mul]
  rw [hs, ← EReal.coe_mul]
  unfold Attn.score
  rw [mul_one_div]

/-- Every scaled score is a real. -/
theorem v13_real (h0 : Attn.Finite x0) (h1 : Attn.Finite x1) (h3 : Attn.Finite x3) (h4 : Attn.Finite x4)
    (i : S8x4096x4096.Idx) : ∃ r : ℝ, Read.val_main_v13 (F := Ideal) x0 x1 x3 x4 i = (r : EReal) := by
  obtain ⟨b, n, j, rfl⟩ : ∃ (b : Fin 8) (n j : Fin 4096), i = ix3 b n j := ⟨i 0, i 1, i 2, eq_ix3 i⟩
  exact ⟨_, v13_apply x0 x1 x3 x4 h0 h1 h3 h4 b n j⟩

/-! ## The running maximum -/

/-- The maximum over the keys, started from `⊥`, is a real. -/
theorem v16_real (h0 : Attn.Finite x0) (h1 : Attn.Finite x1) (h3 : Attn.Finite x3) (h4 : Attn.Finite x4)
    (i : S8x4096.Idx) : ∃ μ : ℝ, Read.val_main_v16 (F := Ideal) x0 x1 x3 x4 i = (μ : EReal) := by
  rw [Read.val_main_v16_apply, Read.val_main_v15_apply, Read.val_main_cst_1_apply]
  simp only [Ideal.maximumf_def, Ideal.ofBits_def, Consts.ofBits_neg_inf]
  rw [max_eq_right bot_le]
  unfold Read.val_main_v14
  rw [Host.reduce_eq_fold_single FloatOps.maximumf _ _ reducesTo_S8x4096x4096_S8x4096_d2 (by decide) h_S_]
  refine Softmax.fold_max_real (by decide) _ (fun k => v13_real x0 x1 x3 x4 h0 h1 h3 h4 _) _ ?_
  rw [Read.val_main_cst_0_apply, Ideal.ofBits_def, Consts.ofBits_neg_inf]
  exact bot_ne_top

/-- The row maximum, as a real. -/
def rowMax (b : Fin 8) (n : Fin 4096) : ℝ := (Read.val_main_v16 (F := Ideal) x0 x1 x3 x4 (ix2 b n)).toReal

theorem rowMax_coe (h0 : Attn.Finite x0) (h1 : Attn.Finite x1) (h3 : Attn.Finite x3) (h4 : Attn.Finite x4)
    (b : Fin 8) (n : Fin 4096) :
    Read.val_main_v16 (F := Ideal) x0 x1 x3 x4 (ix2 b n) = ((rowMax x0 x1 x3 x4 b n : ℝ) : EReal) := by
  obtain ⟨μ, hμ⟩ := v16_real x0 x1 x3 x4 h0 h1 h3 h4 (ix2 b n)
  unfold rowMax
  rw [hμ, EReal.toReal_coe]

/-! ## The exponentials, their sum and the normalised weights -/

/-- The exponential of a score less the row maximum is the real exponential. -/
theorem v20_apply (h0 : Attn.Finite x0) (h1 : Attn.Finite x1) (h3 : Attn.Finite x3) (h4 : Attn.Finite x4)
    (b : Fin 8) (n j : Fin 4096) :
    Read.val_main_v20 (F := Ideal) x0 x1 x3 x4 (ix3 b n j)
      = ((Real.exp (Attn.score (flat x0) (flat x1) x3 x4 b n j - rowMax x0 x1 x3 x4 b n) : ℝ) : EReal) := by
  rw [Read.val_main_v20_apply, Read.val_main_v19_apply, Read.val_main_v18_apply, Read.val_main_v17_apply,
    idx_v17_v18_ix3, v13_apply x0 x1 x3 x4 h0 h1 h3 h4, rowMax_coe x0 x1 x3 x4 h0 h1 h3 h4]
  simp only [Ideal.hostUnary_exp_def, Ideal.subf_def]
  rw [← EReal.coe_sub, Ideal.exp_coe]

/-- The sum of the exponentials over the keys, started from `0`, is the real sum. -/
theorem v21_apply (h0 : Attn.Finite x0) (h1 : Attn.Finite x1) (h3 : Attn.Finite x3) (h4 : Attn.Finite x4)
    (b : Fin 8) (n : Fin 4096) :
    Read.val_main_v21 (F := Ideal) x0 x1 x3 x4 (ix2 b n)
      = ((∑ j : Fin 4096, Real.exp (Attn.score (flat x0) (flat x1) x3 x4 b n j - rowMax x0 x1 x3 x4 b n) : ℝ) : EReal) := by
  rw [Read.val_main_v21_apply, Read.val_main_cst_2_apply]
  simp only [Ideal.ofBits_def, Consts.ofBits_zero, zero_add]
  refine (Finset.sum_congr rfl fun k _ => ?_).trans
    (Softmax.coe_sum Finset.univ fun j : Fin 4096 =>
      Real.exp (Attn.score (flat x0) (flat x1) x3 x4 b n j - rowMax x0 x1 x3 x4 b n))
  rw [idx_v21_ix2, v20_apply x0 x1 x3 x4 h0 h1 h3 h4]

/-- The exponential divided by the sum is the normalised weight. -/
theorem v24_apply (h0 : Attn.Finite x0) (h1 : Attn.Finite x1) (h3 : Attn.Finite x3) (h4 : Attn.Finite x4)
    (b : Fin 8) (n j : Fin 4096) :
    Read.val_main_v24 (F := Ideal) x0 x1 x3 x4 (ix3 b n j)
      = ((Real.exp (Attn.score (flat x0) (flat x1) x3 x4 b n j - rowMax x0 x1 x3 x4 b n)
          / ∑ j' : Fin 4096, Real.exp (Attn.score (flat x0) (flat x1) x3 x4 b n j' - rowMax x0 x1 x3 x4 b n) : ℝ) : EReal) := by
  rw [Read.val_main_v24_apply, Read.val_main_v23_apply, Read.val_main_v22_apply, idx_v22_v23_ix3,
    v20_apply x0 x1 x3 x4 h0 h1 h3 h4, v21_apply x0 x1 x3 x4 h0 h1 h3 h4]
  simp only [Ideal.hostDivf_def]
  rw [Ideal.div_coe (Softmax.sum_exp_pos fun j' : Fin 4096 =>
      Attn.score (flat x0) (flat x1) x3 x4 b n j' - rowMax x0 x1 x3 x4 b n).ne', ← EReal.coe_mul, mul_one_div]

/-! ## The values and the result -/

/-- The transposed value array at (batch, key, channel) is the value at (batch, channel, key). -/
theorem v10_apply (b : Fin 8) (j : Fin 4096) (c : Fin 256) :
    Read.val_main_v10 (F := Ideal) x2 (ix3 b j c) = flat x2 (ix3 b c j) := by
  rw [Read.val_main_v10_apply, idx_v10_ix3]
  rfl

end Stages

/-- The reference's result before its last reshape is the attention function of the reshaped arguments. -/
theorem ref_eq (x0 x1 x2 : (⟨S8x256x64x64, .f32⟩ : BufTy).Contents (Elt Ideal)) (x3 x4 : (⟨S1x4096x256, .f32⟩ : BufTy).Contents (Elt Ideal))
    (h0 : Cert.Attn.Finite x0) (h1 : Cert.Attn.Finite x1) (h2 : Cert.Attn.Finite x2) (h3 : Cert.Attn.Finite x3) (h4 : Cert.Attn.Finite x4) :
    Read.val_main_v26 (F := Ideal) x0 x1 x2 x3 x4
      = Cert.Attn.attn (shapeCast S8x256x4096 x0 shapeCasts_S8x256x64x64_S8x256x4096) (shapeCast S8x256x4096 x1 shapeCasts_S8x256x64x64_S8x256x4096) (shapeCast S8x256x4096 x2 shapeCasts_S8x256x64x64_S8x256x4096) x3 x4 := by
  funext i
  obtain ⟨b, c, n, rfl⟩ : ∃ (b : Fin 8) (c : Fin 256) (n : Fin 4096), i = ix3 b c n := ⟨i 0, i 1, i 2, eq_ix3 i⟩
  rw [Read.val_main_v26_apply, idx_v26_ix3, Read.val_main_v25_apply]
  have hw := Softmax.wavg_normalized (fun j : Fin 4096 => Attn.score (flat x0) (flat x1) x3 x4 b n j)
    (fun j : Fin 4096 => (flat x2 (ix3 b c j)).toReal) (rowMax x0 x1 x3 x4 b n)
  refine ((Finset.sum_congr rfl fun k _ => ?_).trans (Softmax.coe_sum Finset.univ _)).trans
    (congrArg (fun r : ℝ => (r : EReal)) hw)
  obtain ⟨r, hr⟩ := flat_finite h2 (ix3 b c k)
  rw [lidx_v25_ix3, ridx_v25_ix3, v24_apply x0 x1 x3 x4 h0 h1 h3 h4, v10_apply, hr, EReal.toReal_coe, ← EReal.coe_mul]

/-- The last operation only re-indexes that array over [8, 256, 64, 64]. -/
theorem v27_eq (x0 x1 x2 : (⟨S8x256x64x64, .f32⟩ : BufTy).Contents (Elt Ideal)) (x3 x4 : (⟨S1x4096x256, .f32⟩ : BufTy).Contents (Elt Ideal)) :
    Read.val_main_v27 (F := Ideal) x0 x1 x2 x3 x4
      = shapeCast S8x256x64x64 (Read.val_main_v26 (F := Ideal) x0 x1 x2 x3 x4) shapeCasts_S8x256x4096_S8x256x64x64 := rfl

end Cert.ReferenceIdeal.RefValue

end
-- ==== Proof.LibColumnForms.lean ====
/-
  Two layout operations read at an index, for a COLUMN kept after a sum along the rows' lanes (a sum with its axis kept):
  a vector of length a viewed as an a × 1 column, and an a × 1 column broadcast across b lanes.
-/
import Idealize.ShloMosaic.Lib.Pipeline.Value
import Idealize.ShloMosaic.Lib.ValueIdx

noncomputable section

namespace Cert.BoxFilter.ColumnForms

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.BoxFilter.ColumnForms

end
-- ==== Proof.Payload.lean ====
/-
  The body's arithmetic read entry by entry over the extended reals.

  For a query row `p` of the point's 2048 and a key `j` of the point's 256, with `q`, `qp` the query block and its
  positional block (channel-major), `k`, `kp` the key block and its positional block, `v` the value block:
    score      s p j   = ∑ c, ((q c p + qp c p) * 2⁻⁴) * (k c j + kp c j)
    new max    m' p    = max (m p) (max over j of s p j, started from -inf)
    factor     a p     = exp (m p - m' p)
    weight     e p j   = exp (s p j - m' p)
    new sum    l' p    = a p * l p + ∑ j, e p j
    new acc    A' p c  = a p * A p c + ∑ j, e p j * v c j
    output     o c p   = A' p c / l' p
  A change of float format is the identity here, a matrix product into a zero accumulator is the plain sum of
  products over the contracted axis, a lane sum is the plain sum and a lane maximum the fold of `max`.
-/
import proofs.«127803_j89962384982254_2_alg».proof.Proof.Gen.KernelIdeal.Skeleton
import proofs.«127803_j89962384982254_2_alg».proof.Proof.LibColumnForms
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.BoxFilter.ColumnForms

/-! ## The two matrix products -/

theorem sc_lhs_c (i : S2048x256.Idx) (q : dot_S256x2048_S256x256_S2048x256_0_0_1_1_n_n.contr.Idx) :
    (dot_S256x2048_S256x256_S2048x256_0_0_1_1_n_n.lhsIdx i q 0).val = (q ⟨0, by decide⟩).val := dot_S256x2048_S256x256_S2048x256_0_0_1_1_n_n.lhsIdx_val_of_single rfl i q
theorem sc_lhs_n (i : S2048x256.Idx) (q : dot_S256x2048_S256x256_S2048x256_0_0_1_1_n_n.contr.Idx) :
    (dot_S256x2048_S256x256_S2048x256_0_0_1_1_n_n.lhsIdx i q 1).val = (i 0).val := by
  unfold DotDims.lhsIdx
  rw [dif_neg (show ¬(1 : Fin S256x2048.rank) ∈ dot_S256x2048_S256x256_S2048x256_0_0_1_1_n_n.lhsBatch by decide), dif_pos (show (1 : Fin S256x2048.rank) ∈ dot_S256x2048_S256x256_S2048x256_0_0_1_1_n_n.lhsNonContracting by decide)]
  rfl
theorem sc_rhs_c (i : S2048x256.Idx) (q : dot_S256x2048_S256x256_S2048x256_0_0_1_1_n_n.contr.Idx) :
    (dot_S256x2048_S256x256_S2048x256_0_0_1_1_n_n.rhsIdx i q 0).val = (q ⟨0, by decide⟩).val := dot_S256x2048_S256x256_S2048x256_0_0_1_1_n_n.rhsIdx_val_of_single rfl i q
theorem sc_rhs_n (i : S2048x256.Idx) (q : dot_S256x2048_S256x256_S2048x256_0_0_1_1_n_n.contr.Idx) :
    (dot_S256x2048_S256x256_S2048x256_0_0_1_1_n_n.rhsIdx i q 1).val = (i 1).val := by
  unfold DotDims.rhsIdx
  rw [dif_neg (show ¬(1 : Fin S256x256.rank) ∈ dot_S256x2048_S256x256_S2048x256_0_0_1_1_n_n.rhsBatch by decide), dif_pos (show (1 : Fin S256x256.rank) ∈ dot_S256x2048_S256x256_S2048x256_0_0_1_1_n_n.rhsNonContracting by decide)]
  rfl

/-- Scores: both operands channel-major, contracted over the channel (axis 0 of each). -/
theorem matmul_scores (l : FVec Ideal S256x2048 .bf16) (r : FVec Ideal S256x256 .bf16) (p : Fin 2048) (j : Fin 256) :
    matmul dot_S256x2048_S256x256_S2048x256_0_0_1_1_n_n none l r (constant S2048x256 .f32 0x00000000#32) (ix2 p j)
      = ∑ k : Fin 256, l (ix2 k p) * r (ix2 k j) := by
  simp only [matmul]
  rw [Ideal.matmul_constant_zero_apply, ← Equiv.sum_comp (contrEquiv1 dot_S256x2048_S256x256_S2048x256_0_0_1_1_n_n 256 rfl rfl).symm]
  refine Finset.sum_congr rfl fun k _ => ?_
  have hk := contrEquiv1_symm_val dot_S256x2048_S256x256_S2048x256_0_0_1_1_n_n 256 rfl rfl k
  have el : dot_S256x2048_S256x256_S2048x256_0_0_1_1_n_n.lhsIdx (ix2 p j) ((contrEquiv1 dot_S256x2048_S256x256_S2048x256_0_0_1_1_n_n 256 rfl rfl).symm k) = ix2 k p := funext fun a => Fin.ext (by
    match a with
    | ⟨0, _⟩ => exact (sc_lhs_c _ _).trans hk
    | ⟨1, _⟩ => exact sc_lhs_n _ _)
  have er : dot_S256x2048_S256x256_S2048x256_0_0_1_1_n_n.rhsIdx (ix2 p j) ((contrEquiv1 dot_S256x2048_S256x256_S2048x256_0_0_1_1_n_n 256 rfl rfl).symm k) = ix2 k j := funext fun a => Fin.ext (by
    match a with
    | ⟨0, _⟩ => exact (sc_rhs_c _ _).trans hk
    | ⟨1, _⟩ => exact sc_rhs_n _ _)
  rw [el, er]

theorem wv_lhs_c (i : S2048x256.Idx) (q : dot_S2048x256_S256x256_S2048x256_1_1_0_0_n_n.contr.Idx) :
    (dot_S2048x256_S256x256_S2048x256_1_1_0_0_n_n.lhsIdx i q 1).val = (q ⟨0, by decide⟩).val := dot_S2048x256_S256x256_S2048x256_1_1_0_0_n_n.lhsIdx_val_of_single rfl i q
theorem wv_lhs_n (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem wv_rhs_c (i : S2048x256.Idx) (q : dot_S2048x256_S256x256_S2048x256_1_1_0_0_n_n.contr.Idx) :
    (dot_S2048x256_S256x256_S2048x256_1_1_0_0_n_n.rhsIdx i q 1).val = (q ⟨0, by decide⟩).val := dot_S2048x256_S256x256_S2048x256_1_1_0_0_n_n.rhsIdx_val_of_single rfl i q
theorem wv_rhs_n (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl

/-- Weighted values: weights row-major over (row, key), values channel-major over (channel, key), contracted over the key. -/
theorem matmul_values (l : FVec Ideal S2048x256 .bf16) (r : FVec Ideal S256x256 .bf16) (p : Fin 2048) (c : Fin 256) :
    matmul dot_S2048x256_S256x256_S2048x256_1_1_0_0_n_n none l r (constant S2048x256 .f32 0x00000000#32) (ix2 p c)
      = ∑ k : Fin 256, l (ix2 p k) * r (ix2 c k) := by
  simp only [matmul]
  rw [Ideal.matmul_constant_zero_apply, ← Equiv.sum_comp (contrEquiv1 dot_S2048x256_S256x256_S2048x256_1_1_0_0_n_n 256 rfl rfl).symm]
  refine Finset.sum_congr rfl fun k _ => ?_
  have hk := contrEquiv1_symm_val dot_S2048x256_S256x256_S2048x256_1_1_0_0_n_n 256 rfl rfl k
  have el : dot_S2048x256_S256x256_S2048x256_1_1_0_0_n_n.lhsIdx (ix2 p c) ((contrEquiv1 dot_S2048x256_S256x256_S2048x256_1_1_0_0_n_n 256 rfl rfl).symm k) = ix2 p k := funext fun a => Fin.ext (by
    match a with
    | ⟨0, _⟩ => exact wv_lhs_n _ _
    | ⟨1, _⟩ => exact (wv_lhs_c _ _).trans hk)
  have er : dot_S2048x256_S256x256_S2048x256_1_1_0_0_n_n.rhsIdx (ix2 p c) ((contrEquiv1 dot_S2048x256_S256x256_S2048x256_1_1_0_0_n_n 256 rfl rfl).symm k) = ix2 c k := funext fun a => Fin.ext (by
    match a with
    | ⟨0, _⟩ => exact wv_rhs_n _ _
    | ⟨1, _⟩ => exact (wv_rhs_c _ _).trans hk)
  rw [el, er]

/-! ## Dropping and adding the unit batch axis of a block -/

theorem cons_ix2 {n0 n1 : Nat} (a : Fin n0) (b : Fin n1) :
    (Fin.cons (⟨0, Nat.one_pos⟩ : Fin 1) (ix2 a b) : (⟨3, ![1, n0, n1]⟩ : Shape).Idx) = ix3 (0 : Fin 1) a b :=
  funext fun d => by
    match d with
    | ⟨0, _⟩ => rfl
    | ⟨1, _⟩ => rfl
    | ⟨2, _⟩ => rfl

/-- A [1, a, b] block viewed as [a, b] reads, at (i, j), the block at (0, i, j). -/
theorem dropUnit_apply {α : Type} {n0 n1 : Nat} (x : (⟨3, ![1, n0, n1]⟩ : Shape).Idx → α)
    (h : (⟨3, ![1, n0, n1]⟩ : Shape).ShapeCasts ⟨2, ![n0, n1]⟩) (a : Fin n0) (b : Fin n1) :
    shapeCast ⟨2, ![n0, n1]⟩ x h (ix2 a b) = x (ix3 (0 : Fin 1) a b) :=
  (shapeCast_dropUnit_apply (n := 2) ![n0, n1] x h (ix2 a b)).trans (congrArg x (cons_ix2 a b))

/-- An [a, b] array viewed as [1, a, b] reads, at (0, i, j), the array at (i, j). -/
theorem addUnit_apply {α : Type} {n0 n1 : Nat} (x : (⟨2, ![n0, n1]⟩ : Shape).Idx → α)
    (h : (⟨2, ![n0, n1]⟩ : Shape).ShapeCasts ⟨3, ![1, n0, n1]⟩) (u : Fin 1) (a : Fin n0) (b : Fin n1) :
    shapeCast ⟨3, ![1, n0, n1]⟩ x h (ix3 u a b) = x (ix2 a b) :=
  (shapeCast_addUnit_apply (n := 2) ![n0, n1] x h (ix3 u a b)).trans (congrArg x (funext fun d => by
    match d with
    | ⟨0, _⟩ => rfl
    | ⟨1, _⟩ => rfl))

/-! ## The payloads -/

/-- The scaled scores of the point. -/
theorem pay9_apply (x0 : Vec Ideal S1x256x2048 .f32) (x3 : Vec Ideal S256x2048 .f32) (x1 : Vec Ideal S1x256x256 .f32)
    (x4 : Vec Ideal S256x256 .f32) (p : Fin 2048) (j : Fin 256) :
    k0_pay9 (F := Ideal) x0 x3 x1 x4 (ix2 p j)
      = ∑ k : Fin 256, ((x0 (ix3 (0 : Fin 1) k p) + x3 (ix2 k p)) * Ideal.ofBits .f32 0x3D800000#32) * (x1 (ix3 (0 : Fin 1) k j) + x4 (ix2 k j)) := by
  unfold k0_pay9
  refine (matmul_scores _ _ p j).trans (Finset.sum_congr rfl fun k _ => ?_)
  show ((shapeCast S256x2048 x0 _ (ix2 k p) + shapeCast S256x2048 x3 _ (ix2 k p)) * _) * (shapeCast S256x256 x1 _ (ix2 k j) + shapeCast S256x256 x4 _ (ix2 k j)) = _
  rw [dropUnit_apply x0 _ k p, dropUnit_apply x1 _ k j, shapeCast_self, shapeCast_self]
  rfl

/-- The value block as the second product's right operand: (channel, key). -/
theorem pay8_apply (x2 : Vec Ideal S1x256x256 .f32) (c j : Fin 256) :
    k0_pay8 (F := Ideal) x2 (ix2 c j) = x2 (ix3 (0 : Fin 1) c j) := by
  unfold k0_pay8
  exact dropUnit_apply x2 _ c j

/-! ## Lane reductions of a [2048, 256] block -/

theorem lift_ix1 (p : Fin 2048) (k : Fin 256) : reduces_S2048x256_S2048.lift (ix1 p) k = ix2 p k :=
  funext fun d => Fin.ext (by
    match d with
    | ⟨0, _⟩ => rfl
    | ⟨1, _⟩ => rfl)

/-- A row's maximum: the fold of `max` over its 256 entries, started from the accumulator's value. -/
theorem rowmax_apply (src : FVec Ideal S2048x256 .f32) (hφ : FKind.Formats .f32)
    (hacc : (0xFF800000#32 : BitVec 32) = FKind.maximumf.neutral .f32 hφ) (p : Fin 2048) :
    multiReduction .maximumf [1] S2048 src 0xFF800000#32 reduces_S2048x256_S2048 hφ hacc (ix1 p)
      = (Finset.univ : Finset (Fin 256)).fold max (Ideal.ofBits .f32 0xFF800000#32) (fun j => src (ix2 p j)) :=
  (Ideal.multiReduction_maximumf_single src _ reduces_S2048x256_S2048 hφ hacc (ix1 p)).trans
    (Finset.fold_congr fun k _ => congrArg src (lift_ix1 p k))

/-- A row's sum over its 256 entries. -/
theorem rowsum_apply (src : FVec Ideal S2048x256 .f32) (hφ : FKind.Formats .f32)
    (hacc : (0x00000000#32 : BitVec 32) = FKind.add.neutral .f32 hφ) (p : Fin 2048) :
    multiReduction .add [1] S2048 src 0x00000000#32 reduces_S2048x256_S2048 hφ hacc (ix1 p)
      = ∑ j : Fin 256, src (ix2 p j) :=
  (Ideal.multiReduction_add_single src _ reduces_S2048x256_S2048 hφ hacc (ix1 p)).trans
    (Finset.sum_congr rfl fun k _ => congrArg src (lift_ix1 p k))

/-! ## The update -/

/-- The new running maximum of row `p`. -/
theorem pay10_apply (x0 : Vec Ideal S1x256x2048 .f32) (x3 : Vec Ideal S256x2048 .f32) (x1 : Vec Ideal S1x256x256 .f32) (x4 : Vec Ideal S256x256 .f32) (xs0 : Vec Ideal S2048x1 .f32) (p : Fin 2048) (u : Fin 1) :
    k0_pay10 (F := Ideal) x0 x3 x1 x4 xs0 (ix2 p u)
      = max (xs0 (ix2 p u)) ((Finset.univ : Finset (Fin 256)).fold max (Ideal.ofBits .f32 0xFF800000#32)
          (fun j => k0_pay9 (F := Ideal) x0 x3 x1 x4 (ix2 p j))) := by
  unfold k0_pay10
  refine congrArg (max (xs0 (ix2 p u))) ?_
  refine (shapeCast_a_a1_apply _ _ p u).trans ?_
  exact rowmax_apply _ _ _ p

/-- The factor that moves the carried sums to the new maximum. -/
theorem pay11_apply (x0 : Vec Ideal S1x256x2048 .f32) (x3 : Vec Ideal S256x2048 .f32) (x1 : Vec Ideal S1x256x256 .f32) (x4 : Vec Ideal S256x256 .f32) (v21 v25 : Vec Ideal S2048x1 .f32) (p : Fin 2048) (u : Fin 1) :
    k0_pay11 (F := Ideal) x0 x3 x1 x4 v21 v25 (ix2 p u)
      = Ideal.exp (v25 (ix2 p u) - k0_pay10 (F := Ideal) x0 x3 x1 x4 v21 (ix2 p u)) := by
  unfold k0_pay11
  rfl

/-- The weight of key `j` for row `p`, relative to the new maximum. -/
theorem pay12_apply (x0 : Vec Ideal S1x256x2048 .f32) (x3 : Vec Ideal S256x2048 .f32) (x1 : Vec Ideal S1x256x256 .f32) (x4 : Vec Ideal S256x256 .f32) (v21 : Vec Ideal S2048x1 .f32) (p : Fin 2048) (j : Fin 256) :
    k0_pay12 (F := Ideal) x0 x3 x1 x4 v21 (ix2 p j)
      = Ideal.exp (k0_pay9 (F := Ideal) x0 x3 x1 x4 (ix2 p j) - k0_pay10 (F := Ideal) x0 x3 x1 x4 v21 (ix2 p (0 : Fin 1))) := by
  unfold k0_pay12
  show Ideal.exp (k0_pay9 (F := Ideal) x0 x3 x1 x4 (ix2 p j) - broadcastTo S2048x256 (k0_pay10 (F := Ideal) x0 x3 x1 x4 v21) _ (ix2 p j)) = _
  exact congrArg (fun z => Ideal.exp (k0_pay9 (F := Ideal) x0 x3 x1 x4 (ix2 p j) - z)) (broadcastTo_a1_ab_apply _ _ p j)

/-- The new running sum of row `p`. -/
theorem pay1_apply (v27 : FVec Ideal S2048x1 .f32) (v30 : FVec Ideal S2048x256 .f32) (v31 : Vec Ideal S2048x1 .f32) (p : Fin 2048) (u : Fin 1) :
    k0_pay1 (F := Ideal) v27 v30 v31 (ix2 p u) = v27 (ix2 p u) * v31 (ix2 p u) + ∑ j : Fin 256, v30 (ix2 p j) := by
  unfold k0_pay1
  refine (congrFun (shapeCast_self _ _) _).trans ?_
  refine congrArg (v27 (ix2 p u) * v31 (ix2 p u) + ·) ?_
  refine (shapeCast_a_a1_apply _ _ p u).trans ?_
  exact rowsum_apply _ _ _ p

/-- The new running weighted sum of row `p` and channel `c`. -/
theorem pay2_apply (v19 : FVec Ideal S256x256 .bf16) (v27 : FVec Ideal S2048x1 .f32) (v30 : FVec Ideal S2048x256 .f32)
    (v41 : Vec Ideal S2048x256 .f32) (p : Fin 2048) (c : Fin 256) :
    k0_pay2 (F := Ideal) v19 v27 v30 v41 (ix2 p c)
      = v27 (ix2 p (0 : Fin 1)) * v41 (ix2 p c) + ∑ j : Fin 256, v30 (ix2 p j) * v19 (ix2 c j) := by
  unfold k0_pay2
  refine (congrFun (shapeCast_self _ _) _).trans ?_
  show broadcastTo S2048x256 v27 _ (ix2 p c) * v41 (ix2 p c) + matmul dot_S2048x256_S256x256_S2048x256_1_1_0_0_n_n none _ v19 _ (ix2 p c) = _
  rw [broadcastTo_a1_ab_apply v27 _ p c]
  exact congrArg (v27 (ix2 p (0 : Fin 1)) * v41 (ix2 p c) + ·) (matmul_values _ v19 p c)

/-- The maximum is stored as computed. -/
theorem pay3_eq (v24 : FVec Ideal S2048x1 .f32) : k0_pay3 (F := Ideal) v24 = v24 := by
  unfold k0_pay3
  exact shapeCast_self _ _

/-- The output block at (0, channel, row): the weighted sum over the sum. -/
theorem pay4_apply (v54 : Vec Ideal S2048x256 .f32) (v55 : Vec Ideal S2048x1 .f32) (u : Fin 1) (c : Fin 256) (p : Fin 2048) :
    k0_pay4 (F := Ideal) v54 v55 (ix3 u c p) = Ideal.div (v54 (ix2 p c)) (v55 (ix2 p (0 : Fin 1))) := by
  unfold k0_pay4
  refine (addUnit_apply _ _ u c p).trans ?_
  refine (transpose_apply _ _ _ (ix2 c p) (ix2 p c) (fun b => by
    match b with
    | ⟨0, _⟩ => rfl
    | ⟨1, _⟩ => rfl)).trans ?_
  show Ideal.div (v54 (ix2 p c)) (broadcastTo S2048x256 v55 _ (ix2 p c)) = _
  exact congrArg (Ideal.div (v54 (ix2 p c))) (broadcastTo_a1_ab_apply v55 _ p c)

/-- The three initial values: `-inf`, `0`, `0` in every entry. -/
theorem pay5_apply (i : S2048x1.Idx) : k0_pay5 (F := Ideal) i = Ideal.ofBits .f32 0xFF800000#32 := by
  unfold k0_pay5
  exact congrFun (shapeCast_self _ _) i
theorem pay6_apply (i : S2048x1.Idx) : k0_pay6 (F := Ideal) i = Ideal.ofBits .f32 0x00000000#32 := by
  unfold k0_pay6
  exact congrFun (shapeCast_self _ _) i
theorem pay7_apply (i : S2048x256.Idx) : k0_pay7 (F := Ideal) i = Ideal.ofBits .f32 0x00000000#32 := by
  unfold k0_pay7
  exact congrFun (shapeCast_self _ _) i

end Cert.KernelIdeal.Payload

end
-- ==== Proof.KernelHost.lean ====
/-
  The kernel program's operations outside its grid. Before the grid the three [8, 256, 64, 64] arguments are read
  over [8, 256, 4096] and each positional table [1, 4096, 256] is read over [4096, 256] and transposed, so that the
  table handed to the grid holds, at (channel, position), the argument's entry at (0, position, channel). After the
  grid the one remaining operation reads the output array [8, 256, 4096] over [8, 256, 64, 64]; no operation writes
  an argument.
-/
import proofs.«127803_j89962384982254_2_alg».proof.Proof.Gen.KernelIdeal.Frame
import proofs.«127803_j89962384982254_2_alg».proof.Proof.Payload
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host
open Cert.KernelIdeal Cert.KernelIdeal.Gen
variable {F : FTy → Type} [FloatOps F]
variable (m : (ℓ : Loc nD τ sig) → Buf (Elt F) ℓ) (ρ : Dev nD → PrngReg)

/-! ## What the grid finds in its input arrays -/

theorem V_v0 (c : Dev nD) : V m c main_v0 = shapeCast S8x256x4096 (m ((c : Thread nD τ).loc main_arg0)) shapeCasts_S8x256x64x64_S8x256x4096 := by
  show StableHlo.after hostOps0 (fun b => m (c, b)) (Proc.devRef .tc main_v0) = _
  after_results
  rfl
theorem V_v1 (c : Dev nD) : V m c main_v1 = shapeCast S8x256x4096 (m ((c : Thread nD τ).loc main_arg1)) shapeCasts_S8x256x64x64_S8x256x4096 := by
  show StableHlo.after hostOps0 (fun b => m (c, b)) (Proc.devRef .tc main_v1) = _
  after_results
  rfl
theorem V_v2 (c : Dev nD) : V m c main_v2 = shapeCast S8x256x4096 (m ((c : Thread nD τ).loc main_arg2)) shapeCasts_S8x256x64x64_S8x256x4096 := by
  show StableHlo.after hostOps0 (fun b => m (c, b)) (Proc.devRef .tc main_v2) = _
  after_results
  rfl

/-- The first positional table as the grid finds it: the argument read over [4096, 256], transposed. -/
theorem V_v4 (c : Dev nD) : V m c main_v4 = transpose S256x4096 [1, 0]
    (shapeCast S4096x256 (m ((c : Thread nD τ).loc main_arg3)) shapeCasts_S1x4096x256_S4096x256) transposes_S4096x256_S256x4096_1_0 := by
  show StableHlo.after hostOps0 (fun b => m (c, b)) (Proc.devRef .tc main_v4) = _
  after_results
  rfl
/-- The second positional table likewise. -/
theorem V_v6 (c : Dev nD) : V m c main_v6 = transpose S256x4096 [1, 0]
    (shapeCast S4096x256 (m ((c : Thread nD τ).loc main_arg4)) shapeCasts_S1x4096x256_S4096x256) transposes_S4096x256_S256x4096_1_0 := by
  show StableHlo.after hostOps0 (fun b => m (c, b)) (Proc.devRef .tc main_v6) = _
  after_results
  rfl

/-- A [1, 4096, 256] table read over [4096, 256] and transposed holds, at (channel, position), the table's entry at
    (0, position, channel). -/
theorem table_apply {α : Type} (x : S1x4096x256.Idx → α) (k : Fin 256) (n : Fin 4096) :
    transpose S256x4096 [1, 0] (shapeCast S4096x256 x shapeCasts_S1x4096x256_S4096x256) transposes_S4096x256_S256x4096_1_0 (ix2 k n)
      = x (ix3 (0 : Fin 1) n k) :=
  (transpose_apply [1, 0] _ transposes_S4096x256_S256x4096_1_0 (ix2 k n) (ix2 n k) (fun b => match b with
    | ⟨0, _⟩ => rfl
    | ⟨1, _⟩ => rfl)).trans (Payload.dropUnit_apply x shapeCasts_S1x4096x256_S4096x256 n k)

theorem V_v4_apply (c : Dev nD) (k : Fin 256) (n : Fin 4096) :
    V m c main_v4 (ix2 k n) = m ((c : Thread nD τ).loc main_arg3) (ix3 (0 : Fin 1) n k) := by
  rw [V_v4]
  exact table_apply _ k n
theorem V_v6_apply (c : Dev nD) (k : Fin 256) (n : Fin 4096) :
    V m c main_v6 (ix2 k n) = m ((c : Thread nD τ).loc main_arg4) (ix3 (0 : Fin 1) n k) := by
  rw [V_v6]
  exact table_apply _ k n

/-! ## The run: the output array read over [8, 256, 64, 64], the arguments untouched -/

/-- After the grid the one remaining operation leaves, in the result buffer, the output array read over
    [8, 256, 64, 64]. -/
theorem tail_v8 (c : Dev nD) :
    Pipeline.afterTail₀ cfgs (dats m) 0 (V0 m) [hostOps1] c main_v8
      = shapeCast S8x256x64x64 ((dats m 0 c).arrAt 5 cfg0.N) shapeCasts_S8x256x4096_S8x256x64x64 := by
  unfold Pipeline.afterTail₀
  show StableHlo.after hostOps1 _ (Proc.devRef .tc main_v8) = _
  after_results
  exact congrArg (fun x => shapeCast S8x256x64x64 x shapeCasts_S8x256x4096_S8x256x64x64)
    (Pipeline.withArrays_arr spec0 launch0.win.arr_inj c _ _ 5)

theorem run_value (G : (c : Dev nD) → Buf (Elt F) ((c : Thread nD τ).loc main_v7)) (hG : ∀ c, (dats m 0 c).arrAt 5 cfg0.N = G c) :
    θ_run defs (onTc (τ := τ) (main (F := F))) ⟨m, fun _ => 0, ρ⟩ (fun r => ∀ c : Dev nD,
      r.2.mem ((c.tc : Thread nD τ).loc main_v8) = shapeCast S8x256x64x64 (G c) shapeCasts_S8x256x4096_S8x256x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans
        ((tail_v8 m c).trans (congrArg (fun x => shapeCast S8x256x64x64 x shapeCasts_S8x256x4096_S8x256x64x64) (hG c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Host

end
-- ==== Proof.Blocks.lean ====
/-
  The blocks a grid point works on, as entries of the whole arrays.

  Point `t` of the 256 is (batch `t / 32`, query block `(t / 16) % 2`, key block `t % 16`). The query block and its
  positional block are columns `2048 * qi + p` of the (channel, position) arrays, the key, value and key-positional blocks
  are columns `256 * a + j`; the output block has the query block's place. A block's coordinate is always
  index × size + the coordinate inside the block.
-/
import proofs.«127803_j89962384982254_2_alg».proof.Proof.Gen.KernelIdeal.Frame
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx
variable {F : FTy → Type} [FloatOps F]
variable (m : (ℓ : Loc nD τ sig) → Buf (Elt F) ℓ)

/-! ## The printed index maps, decided over the 256 points -/

theorem idx0 : ∀ t : Fin cfg0.N, win0_0.index t (0 : Fin 3) = t.val / 32 ∧ win0_0.index t (1 : Fin 3) = 0 ∧ win0_0.index t (2 : Fin 3) = (t.val / 16) % 2 :=
  (by decide +kernel : ∀ t : Fin grid0.N, _)
theorem idx1 : ∀ t : Fin cfg0.N, win0_1.index t (0 : Fin 3) = t.val / 32 ∧ win0_1.index t (1 : Fin 3) = 0 ∧ win0_1.index t (2 : Fin 3) = t.val % 16 :=
  (by decide +kernel : ∀ t : Fin grid0.N, _)
theorem idx2 : ∀ t : Fin cfg0.N, win0_2.index t (0 : Fin 3) = t.val / 32 ∧ win0_2.index t (1 : Fin 3) = 0 ∧ win0_2.index t (2 : Fin 3) = t.val % 16 :=
  (by decide +kernel : ∀ t : Fin grid0.N, _)
theorem idx3 : ∀ t : Fin cfg0.N, win0_3.index t (0 : Fin 2) = 0 ∧ win0_3.index t (1 : Fin 2) = (t.val / 16) % 2 :=
  (by decide +kernel : ∀ t : Fin grid0.N, _)
theorem idx4 : ∀ t : Fin cfg0.N, win0_4.index t (0 : Fin 2) = 0 ∧ win0_4.index t (1 : Fin 2) = t.val % 16 :=
  (by decide +kernel : ∀ t : Fin grid0.N, _)
theorem idx5 : ∀ t : Fin cfg0.N, win0_5.index t (0 : Fin 3) = t.val / 32 ∧ win0_5.index t (1 : Fin 3) = 0 ∧ win0_5.index t (2 : Fin 3) = (t.val / 16) % 2 :=
  (by decide +kernel : ∀ t : Fin grid0.N, _)

/-! ## The input blocks -/

/-- The query block: channel `k`, row `p` is the query array at (batch, `k`, `2048 * qi + p`). -/
theorem iblk0_apply (c : Dev nD) (t : Fin cfg0.N) (k : Fin 256) (p : Fin 2048) (b : Fin 8) (qi : Fin 2)
    (hb : t.val / 32 = b.val) (hq : (t.val / 16) % 2 = qi.val) :
    (iblk m c 0 t : Vec F S1x256x2048 .f32) (ix3 (0 : Fin 1) k p)
      = V m c main_v0 (ix3 b k ⟨2048 * qi.val + p.val, by have := qi.isLt; have := p.isLt; omega⟩) := by
  unfold iblk
  rw [View.read_apply]
  show V m c main_v0 _ = V m c main_v0 _
  congr 1
  funext a
  apply Fin.ext
  match a with
  | ⟨0, _⟩ =>
    show win0_0.index t 0 * 1 + 1 * 0 = b.val
    rw [(idx0 t).1]; omega
  | ⟨1, _⟩ =>
    show win0_0.index t 1 * 256 + 1 * k.val = k.val
    rw [(idx0 t).2.1]; omega
  | ⟨2, _⟩ =>
    show win0_0.index t 2 * 2048 + 1 * p.val = 2048 * qi.val + p.val
    rw [(idx0 t).2.2]; omega

/-- The key block: channel `k`, key `j` is the key array at (batch, `k`, `256 * a + j`). -/
theorem iblk1_apply (c : Dev nD) (t : Fin cfg0.N) (k j : Fin 256) (b : Fin 8) (a : ℕ) (ha : a < 16)
    (hb : t.val / 32 = b.val) (hk : t.val % 16 = a) :
    (iblk m c 1 t : Vec F S1x256x256 .f32) (ix3 (0 : Fin 1) k j)
      = V m c main_v1 (ix3 b k ⟨256 * a + j.val, by have := j.isLt; omega⟩) := by
  unfold iblk
  rw [View.read_apply]
  show V m c main_v1 _ = V m c main_v1 _
  congr 1
  funext d
  apply Fin.ext
  match d with
  | ⟨0, _⟩ =>
    show win0_1.index t 0 * 1 + 1 * 0 = b.val
    rw [(idx1 t).1]; omega
  | ⟨1, _⟩ =>
    show win0_1.index t 1 * 256 + 1 * k.val = k.val
    rw [(idx1 t).2.1]; omega
  | ⟨2, _⟩ =>
    show win0_1.index t 2 * 256 + 1 * j.val = 256 * a + j.val
    rw [(idx1 t).2.2]; omega

/-- The value block: channel `k`, key `j` is the value array at (batch, `k`, `256 * a + j`). -/
theorem iblk2_apply (c : Dev nD) (t : Fin cfg0.N) (k j : Fin 256) (b : Fin 8) (a : ℕ) (ha : a < 16)
    (hb : t.val / 32 = b.val) (hk : t.val % 16 = a) :
    (iblk m c 2 t : Vec F S1x256x256 .f32) (ix3 (0 : Fin 1) k j)
      = V m c main_v2 (ix3 b k ⟨256 * a + j.val, by have := j.isLt; omega⟩) := by
  unfold iblk
  rw [View.read_apply]
  show V m c main_v2 _ = V m c main_v2 _
  congr 1
  funext d
  apply Fin.ext
  match d with
  | ⟨0, _⟩ =>
    show win0_2.index t 0 * 1 + 1 * 0 = b.val
    rw [(idx2 t).1]; omega
  | ⟨1, _⟩ =>
    show win0_2.index t 1 * 256 + 1 * k.val = k.val
    rw [(idx2 t).2.1]; omega
  | ⟨2, _⟩ =>
    show win0_2.index t 2 * 256 + 1 * j.val = 256 * a + j.val
    rw [(idx2 t).2.2]; omega

/-- The query positional block: channel `k`, row `p` is the (channel, position) table at (`k`, `2048 * qi + p`). -/
theorem iblk3_apply (c : Dev nD) (t : Fin cfg0.N) (k : Fin 256) (p : Fin 2048) (qi : Fin 2)
    (hq : (t.val / 16) % 2 = qi.val) :
    (iblk m c 3 t : Vec F S256x2048 .f32) (ix2 k p)
      = V m c main_v4 (ix2 k ⟨2048 * qi.val + p.val, by have := qi.isLt; have := p.isLt; omega⟩) := by
  unfold iblk
  rw [View.read_apply]
  show V m c main_v4 _ = V m c main_v4 _
  congr 1
  funext d
  apply Fin.ext
  match d with
  | ⟨0, _⟩ =>
    show win0_3.index t 0 * 256 + 1 * k.val = k.val
    rw [(idx3 t).1]; omega
  | ⟨1, _⟩ =>
    show win0_3.index t 1 * 2048 + 1 * p.val = 2048 * qi.val + p.val
    rw [(idx3 t).2]; omega

/-- The key positional block: channel `k`, key `j` is the (channel, position) table at (`k`, `256 * a + j`). -/
theorem iblk4_apply (c : Dev nD) (t : Fin cfg0.N) (k j : Fin 256) (a : ℕ) (ha : a < 16) (hk : t.val % 16 = a) :
    (iblk m c 4 t : Vec F S256x256 .f32) (ix2 k j)
      = V m c main_v6 (ix2 k ⟨256 * a + j.val, by have := j.isLt; omega⟩) := by
  unfold iblk
  rw [View.read_apply]
  show V m c main_v6 _ = V m c main_v6 _
  congr 1
  funext d
  apply Fin.ext
  match d with
  | ⟨0, _⟩ =>
    show win0_4.index t 0 * 256 + 1 * k.val = k.val
    rw [(idx4 t).1]; omega
  | ⟨1, _⟩ =>
    show win0_4.index t 1 * 256 + 1 * j.val = 256 * a + j.val
    rw [(idx4 t).2]; omega

end Cert.KernelIdeal.Blocks
end
-- ==== Proof.KernelValue.lean ====
/-
  The output array after the grid, from what the body leaves at the points that write a block back.

  Point `t` of the 256 is (batch `t / 32`, query block `(t / 16) % 2`, key block `t % 16`). The output block
  [1, 256, 2048] is written back only at a last key block (`t % 16 = 15`), to columns `2048 * qi + p` of batch `b` of
  the (batch, channel, position) array; the sixteen such points tile the array. So if what the body leaves at
  each of them is that block of one array `G`, the array ends holding `G`.
-/
import proofs.«127803_j89962384982254_2_alg».proof.Proof.Gen.KernelIdeal.Frame
import proofs.«127803_j89962384982254_2_alg».proof.Proof.Blocks
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen
variable (m : (ℓ : Loc nD τ sig) → Buf (Elt Ideal) ℓ)

/-- The value left at point `n`, for `n` given as the last key block of (batch `b`, query block `qi`). -/
theorem outs_at (c : Dev nD) (G : Buf (Elt Ideal) ((c : Thread nD τ).loc main_v7))
    (hG : ∀ (b : Fin 8) (qi : Fin 2) (ht : 32 * b.val + 16 * qi.val + 15 < cfg0.N) (ch : Fin 256) (p : Fin 2048),
      (outsAt0 m c (32 * b.val + 16 * qi.val + 15) ht).1 (ix3 (0 : Fin 1) ch p)
        = G (ix3 b ch ⟨2048 * qi.val + p.val, by have := qi.isLt; have := p.isLt; omega⟩))
    (n : ℕ) (hn : n < cfg0.N) (b : Fin 8) (qi : Fin 2) (e : n = 32 * b.val + 16 * qi.val + 15) (ch : Fin 256) (p : Fin 2048) :
    (outsAt0 m c n hn).1 (ix3 (0 : Fin 1) ch p)
      = G (ix3 b ch ⟨2048 * qi.val + p.val, by have := qi.isLt; have := p.isLt; omega⟩) := by
  subst e
  exact hG b qi hn ch p

/-- What a point that writes its block back writes is its block of `G`. -/
theorem flushed5 (c : Dev nD) (G : Buf (Elt Ideal) ((c : Thread nD τ).loc main_v7))
    (hG : ∀ (b : Fin 8) (qi : Fin 2) (ht : 32 * b.val + 16 * qi.val + 15 < cfg0.N) (ch : Fin 256) (p : Fin 2048),
      (outsAt0 m c (32 * b.val + 16 * qi.val + 15) ht).1 (ix3 (0 : Fin 1) ch p)
        = G (ix3 b ch ⟨2048 * qi.val + p.val, by have := qi.isLt; have := p.isLt; omega⟩))
    (t : Fin cfg0.N) (hf : (cfg0.win 5).flush t = true) :
    (dats m 0 c).flushed 5 t = ((cfg0.win 5).blk t).view.read (Elt Ideal) G := by
  have hN : cfg0.N = 256 := N_0
  have h15 : t.val % 16 = 15 := (flush0_5 t).mp hf
  have htlt : t.val < 256 := hN ▸ t.isLt
  show (cfg0.win 5).cut (grid0.coords t) ((dats m 0 c).after 5 t) = _
  rw [after0_5]
  refine funext fun (y : S1x256x2048.Idx) => ?_
  obtain ⟨u, ch, p, rfl⟩ : ∃ (u : Fin 1) (ch : Fin 256) (p : Fin 2048), y = ix3 u ch p := ⟨y 0, y 1, y 2, eq_ix3 y⟩
  obtain rfl : u = 0 := Subsingleton.elim _ _
  rw [View.read_apply]
  refine (outs_at m c G hG t.val t.isLt ⟨t.val / 32, by omega⟩ ⟨(t.val / 16) % 2, by omega⟩ (by simp only; omega) ch p).trans ?_
  show G _ = G _
  congr 1
  funext a
  apply Fin.ext
  match a with
  | ⟨0, _⟩ =>
    show t.val / 32 = win0_5.index t 0 * 1 + 1 * 0
    rw [(Blocks.idx5 t).1]; omega
  | ⟨1, _⟩ =>
    show ch.val = win0_5.index t 1 * 256 + 1 * ch.val
    rw [(Blocks.idx5 t).2.1]; omega
  | ⟨2, _⟩ =>
    show 2048 * ((t.val / 16) % 2) + p.val = win0_5.index t 2 * 2048 + 1 * p.val
    rw [(Blocks.idx5 t).2.2]; omega

/-- An index of the array is in point `t`'s block iff each coordinate is in the block's range on its axis. -/
theorem mem_blk5 (t : Fin cfg0.N) (i : S8x256x4096.Idx) :
    i ∈ ((cfg0.win 5).blk t).view.set
      ↔ ∀ a : Fin 3, win0_5.index t a * S1x256x2048.size a ≤ (i a).val
          ∧ (i a).val < win0_5.index t a * S1x256x2048.size a + S1x256x2048.size a := by
  show i ∈ ((View.whole main_v7).slice (win0_5.rect t)).set ↔ _
  rw [View.set_slice_whole, Rect.mem_set_unit]
  exact Iff.rfl

/-- Every index of the array is in the block of a point that writes it back: position `n` of batch `b` in that of
    the last key block of query block `n / 2048`. -/
theorem cover5 (i : S8x256x4096.Idx) :
    ∃ t : Fin cfg0.N, (cfg0.win 5).flush t = true ∧ i ∈ ((cfg0.win 5).blk t).view.set := by
  have hN : cfg0.N = 256 := N_0
  have h0 : (i 0).val < 8 := (i 0).isLt
  have h1 : (i 1).val < 256 := (i 1).isLt
  have h2 : (i 2).val < 4096 := (i 2).isLt
  have hlt : 32 * (i 0).val + 16 * ((i 2).val / 2048) + 15 < cfg0.N := by omega
  refine ⟨⟨32 * (i 0).val + 16 * ((i 2).val / 2048) + 15, hlt⟩, (flush0_5 _).mpr (by simp only; omega), ?_⟩
  rw [mem_blk5]
  obtain ⟨e0, e1, e2⟩ := Blocks.idx5 ⟨32 * (i 0).val + 16 * ((i 2).val / 2048) + 15, hlt⟩
  intro a
  match a with
  | ⟨0, _⟩ =>
    show win0_5.index _ 0 * 1 ≤ (i 0).val ∧ (i 0).val < win0_5.index _ 0 * 1 + 1
    rw [e0]; simp only; omega
  | ⟨1, _⟩ =>
    show win0_5.index _ 1 * 256 ≤ (i 1).val ∧ (i 1).val < win0_5.index _ 1 * 256 + 256
    rw [e1]; omega
  | ⟨2, _⟩ =>
    show win0_5.index _ 2 * 2048 ≤ (i 2).val ∧ (i 2).val < win0_5.index _ 2 * 2048 + 2048
    rw [e2]; simp only; omega

theorem final5 (c : Dev nD) (G : Buf (Elt Ideal) ((c : Thread nD τ).loc main_v7))
    (hG : ∀ (b : Fin 8) (qi : Fin 2) (ht : 32 * b.val + 16 * qi.val + 15 < cfg0.N) (ch : Fin 256) (p : Fin 2048),
      (outsAt0 m c (32 * b.val + 16 * qi.val + 15) ht).1 (ix3 (0 : Fin 1) ch p)
        = G (ix3 b ch ⟨2048 * qi.val + p.val, by have := qi.isLt; have := p.isLt; omega⟩)) :
    (dats m 0 c).arrAt 5 cfg0.N = G := by
  exact (dats m 0 c).arrAt_eq_of_cover 5 G (flushed5 m c G hG) cover5

end Cert.KernelIdeal.Final

end
-- ==== Proof.Assembly.lean ====
/-
  The five claims, assembled.

  The three frames are the generated ones. For the value claim both programs end, on every device, with one array:
  the attention function of the argument arrays (the three [8, 256, 64, 64] arguments read over [8, 256, 4096], the two
  positional tables as they are), read back over [8, 256, 64, 64]. The reference computes it stage by stage; the
  kernel's grid leaves it block by block, given that each last key block's point leaves its block of it (`OutBlock`).
  Both need every argument entry to be a real, which the precondition gives; re-indexing an array keeps that.
-/
import proofs.«127803_j89962384982254_2_alg».proof.Defs
import proofs.«127803_j89962384982254_2_alg».proof.Proof.Gen.Kernel.Frame
import proofs.«127803_j89962384982254_2_alg».proof.Proof.Gen.KernelIdeal.Frame
import proofs.«127803_j89962384982254_2_alg».proof.Proof.Gen.ReferenceIdeal.Run
import proofs.«127803_j89962384982254_2_alg».proof.Proof.Gen.ReferenceIdeal.Read
import proofs.«127803_j89962384982254_2_alg».proof.Proof.Gen.Pre_finite_inputs
import proofs.«127803_j89962384982254_2_alg».proof.Proof.FiniteInputs
import proofs.«127803_j89962384982254_2_alg».proof.Proof.RefValue
import proofs.«127803_j89962384982254_2_alg».proof.Proof.KernelHost
import proofs.«127803_j89962384982254_2_alg».proof.Proof.KernelValue
import proofs.«127803_j89962384982254_2_alg».proof.Proof.Spec

set_option maxRecDepth 16384

noncomputable section

open Idealize.ShloMosaic Idealize.ShloMosaic.TcCoe Idealize.SL.Sem Idealize.ShloMosaic.ValueIdx

namespace Cert.Proof.Assembly

open Cert.KernelIdeal Cert.KernelIdeal.Gen

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-! ## The value claim -/

/-- Re-indexing an array keeps every entry a real. -/
theorem finite_shapeCast {s t : Shape} {x : s.Idx → EReal} (hx : Cert.Attn.Finite x) (h : s.ShapeCasts t) :
    Cert.Attn.Finite (shapeCast t x h) :=
  fun i => hx (Shape.reshapeEquiv h i)

/-- The attention function of the arrays the grid finds, on device `c`. -/
def G (m : (ℓ : Loc nD τ sig) → Buf (Elt Ideal) ℓ) (c : Dev nD) : Buf (Elt Ideal) ((c : Thread nD τ).loc main_v7) :=
  Cert.Attn.attn (V m c main_v0) (V m c main_v1) (V m c main_v2)
    (m ((c : Thread nD τ).loc main_arg3)) (m ((c : Thread nD τ).loc main_arg4))

/-- What the grid's invariant gives: at the last key block of batch `b` and query block `qi`, the output block holds
    the attention function at (`b`, channel, position `2048 * qi + p`), whenever every entry the grid reads is a real. -/
def OutBlock : Prop :=
  ∀ (m : (ℓ : Loc nD τ sig) → Buf (Elt Ideal) ℓ) (c : Dev nD)
    (hQ : Cert.Attn.Finite (s := S8x256x4096) (V m c main_v0))
    (hK : Cert.Attn.Finite (s := S8x256x4096) (V m c main_v1))
    (hV : Cert.Attn.Finite (s := S8x256x4096) (V m c main_v2))
    (hP3 : Cert.Attn.Finite (s := S1x4096x256) (m ((c : Thread nD τ).loc main_arg3)))
    (hP4 : Cert.Attn.Finite (s := S1x4096x256) (m ((c : Thread nD τ).loc main_arg4)))
    (b : Fin 8) (qi : Fin 2) (ht : 32 * b.val + 16 * qi.val + 15 < cfg0.N) (ch : Fin 256) (p : Fin 2048),
    (outsAt0 m c (32 * b.val + 16 * qi.val + 15) ht).1 (ix3 (0 : Fin 1) ch p)
      = Cert.Attn.attn (V m c main_v0) (V m c main_v1) (V m c main_v2)
          (m ((c : Thread nD τ).loc main_arg3)) (m ((c : Thread nD τ).loc main_arg4))
          (ix3 b ch ⟨2048 * qi.val + p.val, by have := qi.isLt; have := p.isLt; omega⟩)

/-- Both programs end with the attention function of the arguments, read over [8, 256, 64, 64]. -/
theorem algebraic (hout : OutBlock) : Cert.algebraic_KernelIdeal_ReferenceIdeal := by
  intro m ρ m' ρ' hpre hagree
  have hfin := fun c => Cert.FiniteInputs.finite_of_pre m hpre c
  have hV0 : ∀ c, Cert.Attn.Finite (s := S8x256x4096) (V m c main_v0) := fun c => by
    rw [Cert.KernelIdeal.Host.V_v0 m c]
    exact finite_shapeCast (hfin c).1 _
  have hV1 : ∀ c, Cert.Attn.Finite (s := S8x256x4096) (V m c main_v1) := fun c => by
    rw [Cert.KernelIdeal.Host.V_v1 m c]
    exact finite_shapeCast (hfin c).2.1 _
  have hV2 : ∀ c, Cert.Attn.Finite (s := S8x256x4096) (V m c main_v2) := fun c => by
    rw [Cert.KernelIdeal.Host.V_v2 m c]
    exact finite_shapeCast (hfin c).2.2.1 _
  refine ⟨fun c => shapeCast S8x256x64x64 (G m c) shapeCasts_S8x256x4096_S8x256x64x64,
    Cert.KernelIdeal.Host.run_value m ρ (G m) (fun c => Cert.KernelIdeal.Final.final5 m c (G m c)
      (fun b qi ht ch p => hout m c (hV0 c) (hV1 c) (hV2 c) (hfin c).2.2.2.1 (hfin c).2.2.2.2 b qi ht ch p)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2, Cert.ReferenceIdeal.RefValue.v27_eq,
    Cert.ReferenceIdeal.RefValue.ref_eq _ _ _ _ _ (hfin c).1 (hfin c).2.1 (hfin c).2.2.1 (hfin c).2.2.2.1 (hfin c).2.2.2.2]
  show _ = shapeCast S8x256x64x64 (G m c) shapeCasts_S8x256x4096_S8x256x64x64
  unfold G
  rw [Cert.KernelIdeal.Host.V_v0 m c, Cert.KernelIdeal.Host.V_v1 m c, Cert.KernelIdeal.Host.V_v2 m c]

/-- The whole claim from the grid's invariant, behind the generated witnesses of the programs' stated facts. -/
theorem claim_of (hout : OutBlock) : Cert.Claim :=
  ⟨Cert.Kernel.Gen.facts, Cert.KernelIdeal.Gen.facts, Cert.ReferenceIdeal.Gen.facts, Cert.Pre_finite_inputs.Gen.facts,
    frame_k, frame_ki, frame_ri, preserves, algebraic hout⟩

end Cert.Proof.Assembly

end
-- ==== Proof.Pieces.lean ====
/-
  What one grid point's body leaves behind, as pure functions of what it loads.

  A point of the grid is (batch, query block, key block). The body keeps three carried values per query row —
  the running maximum `m`, the running sum `l` and the running weighted sum `acc` — and at every point
  replaces them by the update computed from the point's five input blocks and the carried values:
  the new maximum (`k0_pay3` of `k0_pay10`), the new sum (`k0_pay1`) and the new weighted sum (`k0_pay2`).
  At a first key block the carried values are first reset to `-inf`, `0`, `0` (`k0_pay5`, `k0_pay6`, `k0_pay7`), so the
  update is the same one taken from those constants; at a last key block the output block is moreover
  written: the new weighted sum divided by the new sum, transposed (`k0_pay4`).
  Each equation holds at any float instance: it only says which stored value is read back where.
-/
import proofs.«127803_j89962384982254_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sB0 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : ¬cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    sout0_B_0 c i arg3 harg3 arg4 harg4 arg5 harg5 arg6 harg6 arg7 harg7 arg8 harg8 arg9 harg9 arg10 harg10 arg11 harg11 hc0 hc1 x0 x1 x2 x3 x4 xs0 xs1 xs2 = k0_pay3 (k0_pay10 x0 x3 x1 x4 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sB1 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : ¬cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    sout0_B_1 c i arg3 harg3 arg4 harg4 arg5 harg5 arg6 harg6 arg7 harg7 arg8 harg8 arg9 harg9 arg10 harg10 arg11 harg11 hc0 hc1 x0 x1 x2 x3 x4 xs0 xs1 xs2 = k0_pay1 (k0_pay11 x0 x3 x1 x4 xs0 xs0) (k0_pay12 x0 x3 x1 x4 xs0) xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sB2 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : ¬cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    sout0_B_2 c i arg3 harg3 arg4 harg4 arg5 harg5 arg6 harg6 arg7 harg7 arg8 harg8 arg9 harg9 arg10 harg10 arg11 harg11 hc0 hc1 x0 x1 x2 x3 x4 xs0 xs1 xs2 = k0_pay2 (k0_pay8 x2) (k0_pay11 x0 x3 x1 x4 xs0 xs0) (k0_pay12 x0 x3 x1 x4 xs0) xs2 := by
  unfold sout0_B_2
  rw [View.read_writes_eq_canon _ _ _ (scover0_B_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_B
  dsimp only
  sl_unfold_words
  rw [View.canon_unit_zero hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sC0 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    sout0_C_0 c i arg3 harg3 arg4 harg4 arg5 harg5 arg6 harg6 arg7 harg7 arg8 harg8 arg9 harg9 arg10 harg10 arg11 harg11 hc0 hc1 x0 x1 x2 x3 x4 xs0 xs1 xs2 = k0_pay3 (k0_pay10 x0 x3 x1 x4 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sC1 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    sout0_C_1 c i arg3 harg3 arg4 harg4 arg5 harg5 arg6 harg6 arg7 harg7 arg8 harg8 arg9 harg9 arg10 harg10 arg11 harg11 hc0 hc1 x0 x1 x2 x3 x4 xs0 xs1 xs2 = k0_pay1 (k0_pay11 x0 x3 x1 x4 xs0 xs0) (k0_pay12 x0 x3 x1 x4 xs0) xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sC2 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    sout0_C_2 c i arg3 harg3 arg4 harg4 arg5 harg5 arg6 harg6 arg7 harg7 arg8 harg8 arg9 harg9 arg10 harg10 arg11 harg11 hc0 hc1 x0 x1 x2 x3 x4 xs0 xs1 xs2 = k0_pay2 (k0_pay8 x2) (k0_pay11 x0 x3 x1 x4 xs0 xs0) (k0_pay12 x0 x3 x1 x4 xs0) xs2 := by
  unfold sout0_C_2
  rw [View.read_writes_eq_canon _ _ _ (scover0_C_2 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem oC5 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : ¬cond0_0 i) (hc1 : cond0_1 i) (x0 : Vec F S1x256x2048 .f32) (x1 : Vec F S1x256x256 .f32) (x2 : Vec F S1x256x256 .f32) (x3 : Vec F S256x2048 .f32) (x4 : Vec F S256x256 .f32) (xs0 : Vec F S2048x1 .f32) (xs1 : Vec F S2048x1 .f32) (xs2 : Vec F S2048x256 .f32) :
    out0_C_5 c i arg3 harg3 arg4 harg4 arg5 harg5 arg6 harg6 arg7 harg7 arg8 harg8 arg9 harg9 arg10 harg10 arg11 harg11 hc0 hc1 x0 x1 x2 x3 x4 xs0 xs1 xs2 = k0_pay4 (k0_pay2 (k0_pay8 x2) (k0_pay11 x0 x3 x1 x4 xs0 xs0) (k0_pay12 x0 x3 x1 x4 xs0) xs2) (k0_pay1 (k0_pay11 x0 x3 x1 x4 xs0 xs0) (k0_pay12 x0 x3 x1 x4 xs0) xs1) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 x0 x1 x2 x3 x4 xs0 xs1 xs2)]
  unfold kernelRun0_C
  dsimp only
  sl_unfold_words
  rw [View.canon_unit_zero hz3]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sA0 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i) (x0 : Vec F S1x256x2048 .f32) (x1 : Vec F S1x256x256 .f32) (x2 : Vec F S1x256x256 .f32) (x3 : Vec F S256x2048 .f32) (x4 : Vec F S256x256 .f32)  :
    sout0_A_0 c i arg3 harg3 arg4 harg4 arg5 harg5 arg6 harg6 arg7 harg7 arg8 harg8 arg9 harg9 arg10 harg10 arg11 harg11 hc0 hc1 x0 x1 x2 x3 x4 = k0_pay3 (k0_pay10 x0 x3 x1 x4 (k0_pay5 (F := F))) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S2048x1) hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sA1 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i) (x0 : Vec F S1x256x2048 .f32) (x1 : Vec F S1x256x256 .f32) (x2 : Vec F S1x256x256 .f32) (x3 : Vec F S256x2048 .f32) (x4 : Vec F S256x256 .f32)  :
    sout0_A_1 c i arg3 harg3 arg4 harg4 arg5 harg5 arg6 harg6 arg7 harg7 arg8 harg8 arg9 harg9 arg10 harg10 arg11 harg11 hc0 hc1 x0 x1 x2 x3 x4 = k0_pay1 (k0_pay11 x0 x3 x1 x4 (k0_pay5 (F := F)) (k0_pay5 (F := F))) (k0_pay12 x0 x3 x1 x4 (k0_pay5 (F := F))) (k0_pay6 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S2048x1) hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

theorem sA2 (c : Dev nD) (i : grid0.Coords) (arg3 : Memref sig .tc .vmem S1x256x2048 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S256x2048 .f32) (harg6 : arg6.IsWhole) (arg7 : Memref sig .tc .vmem S256x256 .f32) (harg7 : arg7.IsWhole) (arg8 : Memref sig .tc .vmem S1x256x2048 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole) (hc0 : cond0_0 i) (hc1 : ¬cond0_1 i) (x0 : Vec F S1x256x2048 .f32) (x1 : Vec F S1x256x256 .f32) (x2 : Vec F S1x256x256 .f32) (x3 : Vec F S256x2048 .f32) (x4 : Vec F S256x256 .f32)  :
    sout0_A_2 c i arg3 harg3 arg4 harg4 arg5 harg5 arg6 harg6 arg7 harg7 arg8 harg8 arg9 harg9 arg10 harg10 arg11 harg11 hc0 hc1 x0 x1 x2 x3 x4 = k0_pay2 (k0_pay8 x2) (k0_pay11 x0 x3 x1 x4 (k0_pay5 (F := F)) (k0_pay5 (F := F))) (k0_pay12 x0 x3 x1 x4 (k0_pay5 (F := F))) (k0_pay7 (F := F)) := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S2048x256) hz2]
  simp only [View.readCov_unit_zero (S := S2048x1) _ hz2, View.readCov_unit_zero (S := S2048x256) _ hz2, View.readAt_eq_ld, harg3.read_unread, harg4.read_unread, harg5.read_unread, harg6.read_unread, harg7.read_unread, harg8.read_unread, harg9.read_unread, harg10.read_unread, harg11.read_unread, View.ld_unit_zero (S := S1x256x2048) hz3, View.ld_unit_zero (S := S1x256x256) hz3, View.ld_unit_zero (S := S256x2048) hz2, View.ld_unit_zero (S := S256x256) hz2, View.ld_unit_zero (S := S2048x1) hz2, View.ld_unit_zero (S := S2048x256) hz2]

end Cert.KernelIdeal.Pieces
end
-- ==== Proof.Step.lean ====
/-
  One key block's update of a query row, over the reals.

  With every entry of the point's blocks a real, the score `s p j` of row `p` against key `j` is a real, the block's
  row maximum is a real `β`, and so is the new maximum `μ'` (it is `β` when the carried maximum is `-inf`, and
  `max μ β` when it is a real `μ`). The factor `exp (m - μ')` is `0` from `-inf` and `exp (μ - μ')` from `μ`. The new
  sum is `factor * l + ∑ j, exp (s p j - μ')` and the new weighted sum of channel `c` is
  `factor * a c + ∑ j, exp (s p j - μ') * v c j`: all coerced reals. At a last block the output entry is their quotient.
-/
import proofs.«127803_j89962384982254_2_alg».proof.Proof.Payload
import proofs.«127803_j89962384982254_2_alg».proof.Proof.Spec
import proofs.«127803_j89962384982254_2_alg».proof.Proof.Consts

noncomputable section

namespace Cert.KernelIdeal.Step

open Cert.KernelIdeal Cert.KernelIdeal.Gen Cert.KernelIdeal.Payload Idealize.ShloMosaic Idealize.ShloMosaic.ValueIdx Cert.Attn Cert.Softmax

theorem exp_coe (r : ℝ) : Ideal.exp ((r : ℝ) : EReal) = ((Real.exp r : ℝ) : EReal) := by
  rfl
theorem exp_bot : Ideal.exp (⊥ : EReal) = 0 := by
  rfl

variable (x0 : Vec Ideal S1x256x2048 .f32) (x3 : Vec Ideal S256x2048 .f32) (x1 : Vec Ideal S1x256x256 .f32) (x4 : Vec Ideal S256x256 .f32) (x2 : Vec Ideal S1x256x256 .f32)

/-- The score of row `p` against key `j` of the point, as a real. -/
def sP (x0 : Vec Ideal S1x256x2048 .f32) (x3 : Vec Ideal S256x2048 .f32) (x1 : Vec Ideal S1x256x256 .f32) (x4 : Vec Ideal S256x256 .f32) (p : Fin 2048) (j : Fin 256) : ℝ :=
  ∑ k : Fin 256, (((x0 (ix3 (0 : Fin 1) k p)).toReal + (x3 (ix2 k p)).toReal) * (1 / 16)) * ((x1 (ix3 (0 : Fin 1) k j)).toReal + (x4 (ix2 k j)).toReal)

/-- On real blocks the scaled score is that real. -/
theorem pay9_real (h0 : Finite x0) (h3 : Finite x3) (h1 : Finite x1) (h4 : Finite x4) (p : Fin 2048) (j : Fin 256) :
    k0_pay9 (F := Ideal) x0 x3 x1 x4 (ix2 p j) = ((sP x0 x3 x1 x4 p j : ℝ) : EReal) := by
  rw [pay9_apply]
  unfold sP
  rw [← coe_sum]
  refine Finset.sum_congr rfl fun k _ => ?_
  obtain ⟨a0, ha0⟩ := h0 (ix3 (0 : Fin 1) k p)
  obtain ⟨a3, ha3⟩ := h3 (ix2 k p)
  obtain ⟨a1, ha1⟩ := h1 (ix3 (0 : Fin 1) k j)
  obtain ⟨a4, ha4⟩ := h4 (ix2 k j)
  rw [ha0, ha3, ha1, ha4, Consts.ofBits_sixteenth]
  simp only [EReal.toReal_coe]
  rw [EReal.coe_mul, EReal.coe_mul, EReal.coe_add, EReal.coe_add]

/-- The block's row maximum, started from `-inf`, is a real. -/
theorem rowmax_real (h0 : Finite x0) (h3 : Finite x3) (h1 : Finite x1) (h4 : Finite x4) (p : Fin 2048) :
    ∃ β : ℝ, (Finset.univ : Finset (Fin 256)).fold max (Ideal.ofBits .f32 0xFF800000#32)
      (fun j => k0_pay9 (F := Ideal) x0 x3 x1 x4 (ix2 p j)) = ((β : ℝ) : EReal) := by
  exact fold_max_real (by norm_num) _ (fun j => ⟨_, pay9_real x0 x3 x1 x4 h0 h3 h1 h4 p j⟩) _
    (by rw [Consts.ofBits_neg_inf]; exact bot_ne_top)

/-- The update of row `p` once the new maximum is the real `μ'`, the factor the real `α`, and the carried sums reals. -/
theorem step_core (h0 : Finite x0) (h3 : Finite x3) (h1 : Finite x1) (h4 : Finite x4) (h2 : Finite x2) (M L : Vec Ideal S2048x1 .f32) (A : Vec Ideal S2048x256 .f32) (p : Fin 2048)
    (μ' α l : ℝ) (a : Fin 256 → ℝ)
    (hM' : k0_pay10 (F := Ideal) x0 x3 x1 x4 M (ix2 p (0 : Fin 1)) = ((μ' : ℝ) : EReal))
    (hα : Ideal.exp (M (ix2 p (0 : Fin 1)) - ((μ' : ℝ) : EReal)) = ((α : ℝ) : EReal))
    (hL : L (ix2 p (0 : Fin 1)) = ((l : ℝ) : EReal)) (hA : ∀ c : Fin 256, A (ix2 p c) = ((a c : ℝ) : EReal)) :
    k0_pay1 (F := Ideal) (k0_pay11 (F := Ideal) x0 x3 x1 x4 M M) (k0_pay12 (F := Ideal) x0 x3 x1 x4 M) L (ix2 p (0 : Fin 1))
        = ((α * l + ∑ j : Fin 256, Real.exp (sP x0 x3 x1 x4 p j - μ') : ℝ) : EReal)
    ∧ ∀ c : Fin 256, k0_pay2 (F := Ideal) (k0_pay8 (F := Ideal) x2) (k0_pay11 (F := Ideal) x0 x3 x1 x4 M M) (k0_pay12 (F := Ideal) x0 x3 x1 x4 M) A (ix2 p c)
        = ((α * a c + ∑ j : Fin 256, Real.exp (sP x0 x3 x1 x4 p j - μ') * (x2 (ix3 (0 : Fin 1) c j)).toReal : ℝ) : EReal) := by
  have e12 : ∀ j : Fin 256, k0_pay12 (F := Ideal) x0 x3 x1 x4 M (ix2 p j)
      = ((Real.exp (sP x0 x3 x1 x4 p j - μ') : ℝ) : EReal) := by
    intro j
    rw [pay12_apply, pay9_real x0 x3 x1 x4 h0 h3 h1 h4 p j, hM', ← EReal.coe_sub, exp_coe]
  have e11 : k0_pay11 (F := Ideal) x0 x3 x1 x4 M M (ix2 p (0 : Fin 1)) = ((α : ℝ) : EReal) := by
    rw [pay11_apply, hM', hα]
  refine ⟨?_, fun c => ?_⟩
  · rw [pay1_apply, e11, hL]
    simp only [e12]
    rw [coe_sum, ← EReal.coe_mul, ← EReal.coe_add]
  · have ev : ∀ j : Fin 256, ((Real.exp (sP x0 x3 x1 x4 p j - μ') : ℝ) : EReal) * x2 (ix3 (0 : Fin 1) c j)
        = ((Real.exp (sP x0 x3 x1 x4 p j - μ') * (x2 (ix3 (0 : Fin 1) c j)).toReal : ℝ) : EReal) := by
      intro j
      rw [EReal.coe_mul, h2.coe_toReal]
    rw [pay2_apply, e11, hA c]
    simp only [e12, pay8_apply, ev]
    rw [coe_sum, ← EReal.coe_mul, ← EReal.coe_add]

/-- From the initial values `-inf`, `0`, `0`: the sums over this block alone, relative to its row maximum. -/
theorem step_first (h0 : Finite x0) (h3 : Finite x3) (h1 : Finite x1) (h4 : Finite x4) (h2 : Finite x2) (M L : Vec Ideal S2048x1 .f32) (A : Vec Ideal S2048x256 .f32) (p : Fin 2048)
    (hM : M (ix2 p (0 : Fin 1)) = (⊥ : EReal)) (hL : L (ix2 p (0 : Fin 1)) = 0) (hA : ∀ c : Fin 256, A (ix2 p c) = 0) :
    ∃ μ' : ℝ, k0_pay10 (F := Ideal) x0 x3 x1 x4 M (ix2 p (0 : Fin 1)) = ((μ' : ℝ) : EReal)
      ∧ k0_pay1 (F := Ideal) (k0_pay11 (F := Ideal) x0 x3 x1 x4 M M) (k0_pay12 (F := Ideal) x0 x3 x1 x4 M) L (ix2 p (0 : Fin 1))
          = ((∑ j : Fin 256, Real.exp (sP x0 x3 x1 x4 p j - μ') : ℝ) : EReal)
      ∧ ∀ c : Fin 256, k0_pay2 (F := Ideal) (k0_pay8 (F := Ideal) x2) (k0_pay11 (F := Ideal) x0 x3 x1 x4 M M) (k0_pay12 (F := Ideal) x0 x3 x1 x4 M) A (ix2 p c)
          = ((∑ j : Fin 256, Real.exp (sP x0 x3 x1 x4 p j - μ') * (x2 (ix3 (0 : Fin 1) c j)).toReal : ℝ) : EReal) := by
  obtain ⟨β, hβ⟩ := rowmax_real x0 x3 x1 x4 h0 h3 h1 h4 p
  have hM' : k0_pay10 (F := Ideal) x0 x3 x1 x4 M (ix2 p (0 : Fin 1)) = ((β : ℝ) : EReal) := by
    rw [pay10_apply, hM, hβ]
    exact max_eq_right bot_le
  have hα : Ideal.exp (M (ix2 p (0 : Fin 1)) - ((β : ℝ) : EReal)) = ((0 : ℝ) : EReal) := by
    rw [hM, EReal.bot_sub, exp_bot, EReal.coe_zero]
  obtain ⟨c1, c2⟩ := step_core x0 x3 x1 x4 x2 h0 h3 h1 h4 h2 M L A p β 0 0 (fun _ => 0) hM' hα
    (by rw [hL, EReal.coe_zero]) (fun c => by rw [hA c, EReal.coe_zero])
  refine ⟨β, hM', ?_, fun c => ?_⟩
  · rw [c1, zero_mul, zero_add]
  · rw [c2 c, zero_mul, zero_add]

/-- From a real state `μ`, `l`, `a`: the carried sums moved to the new maximum, plus this block's. -/
theorem step_next (h0 : Finite x0) (h3 : Finite x3) (h1 : Finite x1) (h4 : Finite x4) (h2 : Finite x2) (M L : Vec Ideal S2048x1 .f32) (A : Vec Ideal S2048x256 .f32) (p : Fin 2048)
    (μ l : ℝ) (a : Fin 256 → ℝ)
    (hM : M (ix2 p (0 : Fin 1)) = ((μ : ℝ) : EReal)) (hL : L (ix2 p (0 : Fin 1)) = ((l : ℝ) : EReal))
    (hA : ∀ c : Fin 256, A (ix2 p c) = ((a c : ℝ) : EReal)) :
    ∃ μ' : ℝ, k0_pay10 (F := Ideal) x0 x3 x1 x4 M (ix2 p (0 : Fin 1)) = ((μ' : ℝ) : EReal)
      ∧ k0_pay1 (F := Ideal) (k0_pay11 (F := Ideal) x0 x3 x1 x4 M M) (k0_pay12 (F := Ideal) x0 x3 x1 x4 M) L (ix2 p (0 : Fin 1))
          = ((Real.exp (μ - μ') * l + ∑ j : Fin 256, Real.exp (sP x0 x3 x1 x4 p j - μ') : ℝ) : EReal)
      ∧ ∀ c : Fin 256, k0_pay2 (F := Ideal) (k0_pay8 (F := Ideal) x2) (k0_pay11 (F := Ideal) x0 x3 x1 x4 M M) (k0_pay12 (F := Ideal) x0 x3 x1 x4 M) A (ix2 p c)
          = ((Real.exp (μ - μ') * a c + ∑ j : Fin 256, Real.exp (sP x0 x3 x1 x4 p j - μ') * (x2 (ix3 (0 : Fin 1) c j)).toReal : ℝ) : EReal) := by
  obtain ⟨β, hβ⟩ := rowmax_real x0 x3 x1 x4 h0 h3 h1 h4 p
  have hM' : k0_pay10 (F := Ideal) x0 x3 x1 x4 M (ix2 p (0 : Fin 1)) = ((max μ β : ℝ) : EReal) := by
    rw [pay10_apply, hM, hβ]
    exact (EReal.coe_strictMono.monotone.map_max).symm
  have hα : Ideal.exp (M (ix2 p (0 : Fin 1)) - ((max μ β : ℝ) : EReal))
      = ((Real.exp (μ - max μ β) : ℝ) : EReal) := by
    rw [hM, ← EReal.coe_sub, exp_coe]
  exact ⟨max μ β, hM', step_core x0 x3 x1 x4 x2 h0 h3 h1 h4 h2 M L A p (max μ β) _ l a hM' hα hL hA⟩

/-- The output entry: a real weighted sum over a positive real sum is their real quotient. -/
theorem out_real (A : Vec Ideal S2048x256 .f32) (L : Vec Ideal S2048x1 .f32) (u : Fin 1) (c : Fin 256) (p : Fin 2048) (w l : ℝ)
    (hl : l ≠ 0) (hA : A (ix2 p c) = ((w : ℝ) : EReal)) (hL : L (ix2 p (0 : Fin 1)) = ((l : ℝ) : EReal)) :
    k0_pay4 (F := Ideal) A L (ix3 u c p) = ((w / l : ℝ) : EReal) := by
  rw [pay4_apply, hA, hL, Ideal.div_coe hl, ← EReal.coe_mul, mul_one_div]

end Cert.KernelIdeal.Step

end
-- ==== Proof.Blockwise.lean ====
/-
  Sums over the keys taken block by block: 16 blocks of 256.

  A running sum over the first `n` blocks, kept relative to `μ`, moves to `μ'` by the factor `exp (μ - μ')`; over all
  16 blocks the weighted sum over the plain sum is the softmax-weighted average over the 4096 keys, whatever `μ` is, and
  the plain sum is not zero.
-/
import proofs.«127803_j89962384982254_2_alg».proof.Proof.Softmax

noncomputable section

namespace Cert.Softmax

open Finset

theorem rescale_blocks (n : ℕ) (g w : ℕ → ℝ) (μ μ' : ℝ) :
    Real.exp (μ - μ') * ∑ a ∈ range n, ∑ j : Fin 256, Real.exp (g (256 * a + j.val) - μ) * w (256 * a + j.val)
      = ∑ a ∈ range n, ∑ j : Fin 256, Real.exp (g (256 * a + j.val) - μ') * w (256 * a + j.val) := by
  rw [Finset.mul_sum]
  refine Finset.sum_congr rfl fun a _ => ?_
  exact rescale_sum Finset.univ (fun j : Fin 256 => g (256 * a + j.val)) (fun j : Fin 256 => w (256 * a + j.val)) μ μ'

theorem rescale_blocks_one (n : ℕ) (g : ℕ → ℝ) (μ μ' : ℝ) :
    Real.exp (μ - μ') * ∑ a ∈ range n, ∑ j : Fin 256, Real.exp (g (256 * a + j.val) - μ)
      = ∑ a ∈ range n, ∑ j : Fin 256, Real.exp (g (256 * a + j.val) - μ') := by
  have h := rescale_blocks n g (fun _ => 1) μ μ'
  simpa only [mul_one] using h

theorem blocks_sum_ne_zero (g : ℕ → ℝ) (μ : ℝ) :
    ∑ a ∈ range 16, ∑ j : Fin 256, Real.exp (g (256 * a + j.val) - μ) ≠ 0 := by
  apply ne_of_gt
  exact Finset.sum_pos (fun a _ => Finset.sum_pos (fun j _ => Real.exp_pos _) Finset.univ_nonempty)
    ⟨0, Finset.mem_range.mpr (by norm_num)⟩

theorem blocks_wavg (g w : ℕ → ℝ) (μ : ℝ) :
    (∑ a ∈ range 16, ∑ j : Fin 256, Real.exp (g (256 * a + j.val) - μ) * w (256 * a + j.val))
        / (∑ a ∈ range 16, ∑ j : Fin 256, Real.exp (g (256 * a + j.val) - μ))
      = wavg (fun k : Fin 4096 => g k.val) (fun k : Fin 4096 => w k.val) := by
  have h1 : ∑ k : Fin 4096, Real.exp (g k.val - μ) * w k.val
      = ∑ a ∈ range 16, ∑ j : Fin 256, Real.exp (g (256 * a + j.val) - μ) * w (256 * a + j.val) :=
    sum_blocks (fun κ => Real.exp (g κ - μ) * w κ)
  have h2 : ∑ k : Fin 4096, Real.exp (g k.val - μ)
      = ∑ a ∈ range 16, ∑ j : Fin 256, Real.exp (g (256 * a + j.val) - μ) :=
    sum_blocks (fun κ => Real.exp (g κ - μ))
  rw [← h1, ← h2]
  exact wavg_shift (fun k : Fin 4096 => g k.val) (fun k : Fin 4096 => w k.val) μ

end Cert.Softmax

end
-- ==== Proof.Invariant.lean ====
/-
  The carried values after every grid point.

  Fix a batch `b` and a query block `qi`; the 16 points (b, qi, a), a = 0 … 15, run over the key blocks in order. For a
  query row `p` write `s κ` for its scaled score against key `κ` (of 4096) and `v ch κ` for the value of channel `ch` at key
  `κ`. After point (b, qi, a) there is a real `μ` with
    carried maximum  = μ,
    carried sum      = ∑ over the keys κ < 256 (a + 1) of exp (s κ - μ),
    carried weighted = ∑ over the same keys of exp (s κ - μ) * v ch κ,
  by induction on `a`: the first point starts from `-inf`, `0`, `0`; a later point moves the carried sums to its new
  maximum by the factor `exp (μ - μ')` and adds its own block. After the last point the output block holds the quotient,
  which is the softmax-weighted average over all 4096 keys: the attention output.
-/
import proofs.«127803_j89962384982254_2_alg».proof.Proof.Gen.KernelIdeal.Frame
import Idealize.ShloMosaic.Lib.Pipeline.Value
import Idealize.ShloMosaic.Lib.Tactic
import Idealize.ShloMosaic.Lib.ValueIdx
import proofs.«127803_j89962384982254_2_alg».proof.Proof.Pieces
import proofs.«127803_j89962384982254_2_alg».proof.Proof.Step
import proofs.«127803_j89962384982254_2_alg».proof.Proof.Blocks
import proofs.«127803_j89962384982254_2_alg».proof.Proof.KernelHost
import proofs.«127803_j89962384982254_2_alg».proof.Proof.Blockwise
import proofs.«127803_j89962384982254_2_alg».proof.Proof.Spec
import proofs.«127803_j89962384982254_2_alg».proof.Proof.Consts
set_option maxRecDepth 16384

noncomputable section

open Idealize.ShloMosaic Idealize.ShloMosaic.TcCoe Idealize.SL.Sem
open Idealize.ShloMosaic.Pipeline (Dat)

namespace Cert.KernelIdeal.Inv
open Cert.KernelIdeal Cert.KernelIdeal.Gen Idealize.ShloMosaic.ValueIdx Cert.Attn Cert.Softmax Finset
open Cert.KernelIdeal.Pieces Cert.KernelIdeal.Payload Cert.KernelIdeal.Step Cert.KernelIdeal.Blocks Cert.KernelIdeal.Host

variable (m : (ℓ : Loc nD τ sig) → Buf (Elt Ideal) ℓ)

/-! ## The blocks of a point, and what the frame found there -/

abbrev B0 (c : Dev nD) (t : Fin cfg0.N) : Vec Ideal S1x256x2048 .f32 := iblk m c 0 t
abbrev B1 (c : Dev nD) (t : Fin cfg0.N) : Vec Ideal S1x256x256 .f32 := iblk m c 1 t
abbrev B2 (c : Dev nD) (t : Fin cfg0.N) : Vec Ideal S1x256x256 .f32 := iblk m c 2 t
abbrev B3 (c : Dev nD) (t : Fin cfg0.N) : Vec Ideal S256x2048 .f32 := iblk m c 3 t
abbrev B4 (c : Dev nD) (t : Fin cfg0.N) : Vec Ideal S256x256 .f32 := iblk m c 4 t

/-- A first key block: the update taken from the initial values. -/
theorem point_A (c : Dev nD) (t : Fin cfg0.N) (h0 : t.val % 16 = 0) (h1 : ¬t.val % 16 = 15) :
    (outsAt0 m c t.val t.isLt).2.1 = k0_pay3 (k0_pay10 (B0 m c t) (B3 m c t) (B1 m c t) (B4 m c t) (k0_pay5 (F := Ideal)))
    ∧ (outsAt0 m c t.val t.isLt).2.2.1 = k0_pay1 (k0_pay11 (B0 m c t) (B3 m c t) (B1 m c t) (B4 m c t) (k0_pay5 (F := Ideal)) (k0_pay5 (F := Ideal))) (k0_pay12 (B0 m c t) (B3 m c t) (B1 m c t) (B4 m c t) (k0_pay5 (F := Ideal))) (k0_pay6 (F := Ideal))
    ∧ (outsAt0 m c t.val t.isLt).2.2.2 = k0_pay2 (k0_pay8 (B2 m c t)) (k0_pay11 (B0 m c t) (B3 m c t) (B1 m c t) (B4 m c t) (k0_pay5 (F := Ideal)) (k0_pay5 (F := Ideal))) (k0_pay12 (B0 m c t) (B3 m c t) (B1 m c t) (B4 m c t) (k0_pay5 (F := Ideal))) (k0_pay7 (F := Ideal)) := by
  rw [outsAt0_A m c t h0 h1]
  dsimp only
  rw [sA0, sA1, sA2]
  exact ⟨rfl, rfl, rfl⟩

/-- A middle key block: the update taken from what the point before left. -/
theorem point_B (c : Dev nD) (t : Fin cfg0.N) (h0 : ¬t.val % 16 = 0) (h1 : ¬t.val % 16 = 15) (n : ℕ) (hn : n < cfg0.N) (hp : t.val - 1 = n) :
    (outsAt0 m c t.val t.isLt).2.1 = k0_pay3 (k0_pay10 (B0 m c t) (B3 m c t) (B1 m c t) (B4 m c t) (outsAt0 m c n hn).2.1)
    ∧ (outsAt0 m c t.val t.isLt).2.2.1 = k0_pay1 (k0_pay11 (B0 m c t) (B3 m c t) (B1 m c t) (B4 m c t) (outsAt0 m c n hn).2.1 (outsAt0 m c n hn).2.1) (k0_pay12 (B0 m c t) (B3 m c t) (B1 m c t) (B4 m c t) (outsAt0 m c n hn).2.1) (outsAt0 m c n hn).2.2.1
    ∧ (outsAt0 m c t.val t.isLt).2.2.2 = k0_pay2 (k0_pay8 (B2 m c t)) (k0_pay11 (B0 m c t) (B3 m c t) (B1 m c t) (B4 m c t) (outsAt0 m c n hn).2.1 (outsAt0 m c n hn).2.1) (k0_pay12 (B0 m c t) (B3 m c t) (B1 m c t) (B4 m c t) (outsAt0 m c n hn).2.1) (outsAt0 m c n hn).2.2.2 := by
  subst hp
  rw [outsAt0_B m c t h0 h1]
  dsimp only
  rw [sB0, sB1, sB2]
  exact ⟨rfl, rfl, rfl⟩

/-- A last key block: the same update, and the output block written from the new sums. -/
theorem point_C (c : Dev nD) (t : Fin cfg0.N) (h0 : ¬t.val % 16 = 0) (h1 : t.val % 16 = 15) (n : ℕ) (hn : n < cfg0.N) (hp : t.val - 1 = n) :
    (outsAt0 m c t.val t.isLt).2.1 = k0_pay3 (k0_pay10 (B0 m c t) (B3 m c t) (B1 m c t) (B4 m c t) (outsAt0 m c n hn).2.1)
    ∧ (outsAt0 m c t.val t.isLt).2.2.1 = k0_pay1 (k0_pay11 (B0 m c t) (B3 m c t) (B1 m c t) (B4 m c t) (outsAt0 m c n hn).2.1 (outsAt0 m c n hn).2.1) (k0_pay12 (B0 m c t) (B3 m c t) (B1 m c t) (B4 m c t) (outsAt0 m c n hn).2.1) (outsAt0 m c n hn).2.2.1
    ∧ (outsAt0 m c t.val t.isLt).2.2.2 = k0_pay2 (k0_pay8 (B2 m c t)) (k0_pay11 (B0 m c t) (B3 m c t) (B1 m c t) (B4 m c t) (outsAt0 m c n hn).2.1 (outsAt0 m c n hn).2.1) (k0_pay12 (B0 m c t) (B3 m c t) (B1 m c t) (B4 m c t) (outsAt0 m c n hn).2.1) (outsAt0 m c n hn).2.2.2
    ∧ (outsAt0 m c t.val t.isLt).1 = k0_pay4 (outsAt0 m c t.val t.isLt).2.2.2 (outsAt0 m c t.val t.isLt).2.2.1 := by
  subst hp
  rw [outsAt0_C m c t h0 h1]
  dsimp only
  rw [oC5, sC0, sC1, sC2]
  exact ⟨rfl, rfl, rfl, rfl⟩

/-! ## The blocks' entries are entries of the whole arrays -/

/-- The scaled score of query row `p` of query block `qi` in batch `b` against key `κ` (zero past the 4096 keys). -/
def sK (c : Dev nD) (b : Fin 8) (qi : Fin 2) (p : Fin 2048) (κ : ℕ) : ℝ :=
  if h : κ < 4096 then
    score (V m c main_v0) (V m c main_v1) (m ((c : Thread nD τ).loc main_arg3)) (m ((c : Thread nD τ).loc main_arg4)) b
      ⟨2048 * qi.val + p.val, by have := qi.isLt; have := p.isLt; omega⟩ ⟨κ, h⟩
  else 0

/-- The value of channel `ch` at key `κ` in batch `b` (zero past the 4096 keys). -/
def vK (c : Dev nD) (b : Fin 8) (ch : Fin 256) (κ : ℕ) : ℝ :=
  if h : κ < 4096 then (V m c main_v2 (ix3 b ch ⟨κ, h⟩)).toReal else 0

theorem fin_B0 (c : Dev nD) (t : Fin cfg0.N) (h : Finite (s := S8x256x4096) (V m c main_v0)) : Finite (s := S1x256x2048) (B0 m c t) := fun y => by
  show ∃ r : ℝ, iblk m c 0 t y = _
  unfold iblk; rw [View.read_apply]; exact h _
theorem fin_B1 (c : Dev nD) (t : Fin cfg0.N) (h : Finite (s := S8x256x4096) (V m c main_v1)) : Finite (s := S1x256x256) (B1 m c t) := fun y => by
  show ∃ r : ℝ, iblk m c 1 t y = _
  unfold iblk; rw [View.read_apply]; exact h _
theorem fin_B2 (c : Dev nD) (t : Fin cfg0.N) (h : Finite (s := S8x256x4096) (V m c main_v2)) : Finite (s := S1x256x256) (B2 m c t) := fun y => by
  show ∃ r : ℝ, iblk m c 2 t y = _
  unfold iblk; rw [View.read_apply]; exact h _

theorem fin_v4 (c : Dev nD) (h : Finite (s := S1x4096x256) (m ((c : Thread nD τ).loc main_arg3))) : Finite (s := S256x4096) (V m c main_v4) := fun i => by
  obtain ⟨k, n, rfl⟩ : ∃ (k : Fin 256) (n : Fin 4096), i = ix2 k n := ⟨i 0, i 1, eq_ix2 i⟩
  rw [V_v4_apply m c k n]; exact h _
theorem fin_v6 (c : Dev nD) (h : Finite (s := S1x4096x256) (m ((c : Thread nD τ).loc main_arg4))) : Finite (s := S256x4096) (V m c main_v6) := fun i => by
  obtain ⟨k, n, rfl⟩ : ∃ (k : Fin 256) (n : Fin 4096), i = ix2 k n := ⟨i 0, i 1, eq_ix2 i⟩
  rw [V_v6_apply m c k n]; exact h _
theorem fin_B3 (c : Dev nD) (t : Fin cfg0.N) (h : Finite (s := S1x4096x256) (m ((c : Thread nD τ).loc main_arg3))) : Finite (s := S256x2048) (B3 m c t) := fun y => by
  show ∃ r : ℝ, iblk m c 3 t y = _
  unfold iblk; rw [View.read_apply]; exact fin_v4 m c h _
theorem fin_B4 (c : Dev nD) (t : Fin cfg0.N) (h : Finite (s := S1x4096x256) (m ((c : Thread nD τ).loc main_arg4))) : Finite (s := S256x256) (B4 m c t) := fun y => by
  show ∃ r : ℝ, iblk m c 4 t y = _
  unfold iblk; rw [View.read_apply]; exact fin_v6 m c h _

/-- The point's score of row `p` against its key `j` is the score against key `256 * a + j` of the whole arrays. -/
theorem sP_eq (c : Dev nD) (t : Fin cfg0.N) (b : Fin 8) (qi : Fin 2) (a : ℕ) (ha : a < 16)
    (hb : t.val / 32 = b.val) (hq : (t.val / 16) % 2 = qi.val) (hk : t.val % 16 = a) (p : Fin 2048) (j : Fin 256) :
    sP (B0 m c t) (B3 m c t) (B1 m c t) (B4 m c t) p j = sK m c b qi p (256 * a + j.val) := by
  have hj := j.isLt
  unfold sP sK
  rw [dif_pos (by omega : 256 * a + j.val < 4096)]
  unfold score qrow
  rw [Finset.sum_div]
  refine Finset.sum_congr rfl fun k _ => ?_
  dsimp only [B0, B1, B3, B4]
  rw [iblk0_apply m c t k p b qi hb hq, iblk3_apply m c t k p qi hq, iblk1_apply m c t k j b a ha hb hk,
    iblk4_apply m c t k j a ha hk, V_v4_apply m c, V_v6_apply m c]
  ring

/-- The point's value of channel `ch` at its key `j` is the value at key `256 * a + j` of the whole array. -/
theorem vP_eq (c : Dev nD) (t : Fin cfg0.N) (b : Fin 8) (a : ℕ) (ha : a < 16)
    (hb : t.val / 32 = b.val) (hk : t.val % 16 = a) (ch j : Fin 256) :
    (B2 m c t (ix3 (0 : Fin 1) ch j)).toReal = vK m c b ch (256 * a + j.val) := by
  have hj := j.isLt
  unfold vK
  rw [dif_pos (by omega : 256 * a + j.val < 4096)]
  exact congrArg EReal.toReal (iblk2_apply m c t ch j b a ha hb hk)

/-! ## The carried values after point (b, qi, a) -/

theorem inv (c : Dev nD) (hQ : Finite (s := S8x256x4096) (V m c main_v0)) (hK : Finite (s := S8x256x4096) (V m c main_v1)) (hV : Finite (s := S8x256x4096) (V m c main_v2)) (hP3 : Finite (s := S1x4096x256) (m ((c : Thread nD τ).loc main_arg3))) (hP4 : Finite (s := S1x4096x256) (m ((c : Thread nD τ).loc main_arg4))) (b : Fin 8) (qi : Fin 2) :
    ∀ (a : ℕ) (ha : a < 16) (ht : 32 * b.val + 16 * qi.val + a < cfg0.N) (p : Fin 2048),
      ∃ μ : ℝ, (outsAt0 m c (32 * b.val + 16 * qi.val + a) ht).2.1 (ix2 p (0 : Fin 1)) = ((μ : ℝ) : EReal)
        ∧ (outsAt0 m c (32 * b.val + 16 * qi.val + a) ht).2.2.1 (ix2 p (0 : Fin 1))
            = ((∑ a' ∈ range (a + 1), ∑ j : Fin 256, Real.exp (sK m c b qi p (256 * a' + j.val) - μ) : ℝ) : EReal)
        ∧ ∀ ch : Fin 256, (outsAt0 m c (32 * b.val + 16 * qi.val + a) ht).2.2.2 (ix2 p ch)
            = ((∑ a' ∈ range (a + 1), ∑ j : Fin 256, Real.exp (sK m c b qi p (256 * a' + j.val) - μ) * vK m c b ch (256 * a' + j.val) : ℝ) : EReal) := by
  have hN : cfg0.N = 256 := N_0
  have hbl := b.isLt
  have hql := qi.isLt
  intro a
  induction a with
  | zero =>
    intro ha ht p
    let t : Fin cfg0.N := ⟨32 * b.val + 16 * qi.val + 0, ht⟩
    have h0 : t.val % 16 = 0 := by show (32 * b.val + 16 * qi.val + 0) % 16 = 0; omega
    have h1 : ¬t.val % 16 = 15 := by show ¬(32 * b.val + 16 * qi.val + 0) % 16 = 15; omega
    have hb : t.val / 32 = b.val := by show (32 * b.val + 16 * qi.val + 0) / 32 = b.val; omega
    have hq : (t.val / 16) % 2 = qi.val := by show ((32 * b.val + 16 * qi.val + 0) / 16) % 2 = qi.val; omega
    obtain ⟨e0, e1, e2⟩ := point_A m c t h0 h1
    obtain ⟨μ', hm, hl, hacc⟩ := step_first (B0 m c t) (B3 m c t) (B1 m c t) (B4 m c t) (B2 m c t) (fin_B0 m c t hQ) (fin_B3 m c t hP3) (fin_B1 m c t hK) (fin_B4 m c t hP4) (fin_B2 m c t hV)
      (k0_pay5 (F := Ideal)) (k0_pay6 (F := Ideal)) (k0_pay7 (F := Ideal)) p
      (by rw [pay5_apply]; exact Consts.ofBits_neg_inf) (by rw [pay6_apply]; exact Consts.ofBits_zero)
      (fun ch => by rw [pay7_apply]; exact Consts.ofBits_zero)
    refine ⟨μ', ?_, ?_, ?_⟩
    · show (outsAt0 m c t.val t.isLt).2.1 (ix2 p (0 : Fin 1)) = _
      rw [e0, pay3_eq]; exact hm
    · show (outsAt0 m c t.val t.isLt).2.2.1 (ix2 p (0 : Fin 1)) = _
      rw [e1, hl, Finset.sum_range_one]
      exact congrArg _ (Finset.sum_congr rfl fun j _ => by rw [sP_eq m c t b qi 0 (by omega) hb hq h0 p j])
    · intro ch
      show (outsAt0 m c t.val t.isLt).2.2.2 (ix2 p ch) = _
      rw [e2, hacc ch, Finset.sum_range_one]
      exact congrArg _ (Finset.sum_congr rfl fun j _ => by
        rw [sP_eq m c t b qi 0 (by omega) hb hq h0 p j, vP_eq m c t b 0 (by omega) hb h0 ch j])
  | succ a ih =>
    intro ha ht p
    let t : Fin cfg0.N := ⟨32 * b.val + 16 * qi.val + (a + 1), ht⟩
    have h0 : ¬t.val % 16 = 0 := by show ¬(32 * b.val + 16 * qi.val + (a + 1)) % 16 = 0; omega
    have hb : t.val / 32 = b.val := by show (32 * b.val + 16 * qi.val + (a + 1)) / 32 = b.val; omega
    have hq : (t.val / 16) % 2 = qi.val := by show ((32 * b.val + 16 * qi.val + (a + 1)) / 16) % 2 = qi.val; omega
    have hk : t.val % 16 = a + 1 := by show (32 * b.val + 16 * qi.val + (a + 1)) % 16 = a + 1; omega
    have hn : 32 * b.val + 16 * qi.val + a < cfg0.N := by omega
    have hp : t.val - 1 = 32 * b.val + 16 * qi.val + a := by show 32 * b.val + 16 * qi.val + (a + 1) - 1 = _; omega
    obtain ⟨μ, hm, hl, hacc⟩ := ih (by omega) hn p
    obtain ⟨μ', hm', hl', hacc'⟩ := step_next (B0 m c t) (B3 m c t) (B1 m c t) (B4 m c t) (B2 m c t) (fin_B0 m c t hQ) (fin_B3 m c t hP3) (fin_B1 m c t hK) (fin_B4 m c t hP4) (fin_B2 m c t hV)
      (outsAt0 m c (32 * b.val + 16 * qi.val + a) hn).2.1 (outsAt0 m c (32 * b.val + 16 * qi.val + a) hn).2.2.1 (outsAt0 m c (32 * b.val + 16 * qi.val + a) hn).2.2.2 p μ _ _ hm hl hacc
    have key : (outsAt0 m c t.val t.isLt).2.1 = k0_pay3 (k0_pay10 (B0 m c t) (B3 m c t) (B1 m c t) (B4 m c t) (outsAt0 m c (32 * b.val + 16 * qi.val + a) hn).2.1)
        ∧ (outsAt0 m c t.val t.isLt).2.2.1 = k0_pay1 (k0_pay11 (B0 m c t) (B3 m c t) (B1 m c t) (B4 m c t) (outsAt0 m c (32 * b.val + 16 * qi.val + a) hn).2.1 (outsAt0 m c (32 * b.val + 16 * qi.val + a) hn).2.1) (k0_pay12 (B0 m c t) (B3 m c t) (B1 m c t) (B4 m c t) (outsAt0 m c (32 * b.val + 16 * qi.val + a) hn).2.1) (outsAt0 m c (32 * b.val + 16 * qi.val + a) hn).2.2.1
        ∧ (outsAt0 m c t.val t.isLt).2.2.2 = k0_pay2 (k0_pay8 (B2 m c t)) (k0_pay11 (B0 m c t) (B3 m c t) (B1 m c t) (B4 m c t) (outsAt0 m c (32 * b.val + 16 * qi.val + a) hn).2.1 (outsAt0 m c (32 * b.val + 16 * qi.val + a) hn).2.1) (k0_pay12 (B0 m c t) (B3 m c t) (B1 m c t) (B4 m c t) (outsAt0 m c (32 * b.val + 16 * qi.val + a) hn).2.1) (outsAt0 m c (32 * b.val + 16 * qi.val + a) hn).2.2.2 := by
      by_cases h1 : t.val % 16 = 15
      · obtain ⟨e0, e1, e2, _⟩ := point_C m c t h0 h1 _ hn hp
        exact ⟨e0, e1, e2⟩
      · exact point_B m c t h0 h1 _ hn hp
    obtain ⟨e0, e1, e2⟩ := key
    refine ⟨μ', ?_, ?_, ?_⟩
    · show (outsAt0 m c t.val t.isLt).2.1 (ix2 p (0 : Fin 1)) = _
      rw [e0, pay3_eq]; exact hm'
    · show (outsAt0 m c t.val t.isLt).2.2.1 (ix2 p (0 : Fin 1)) = _
      rw [e1, hl', Finset.sum_range_succ _ (a + 1), ← rescale_blocks_one (a + 1) (sK m c b qi p) μ μ']
      exact congrArg _ (congrArg _ (Finset.sum_congr rfl fun j _ => by rw [sP_eq m c t b qi (a + 1) ha hb hq hk p j]))
    · intro ch
      show (outsAt0 m c t.val t.isLt).2.2.2 (ix2 p ch) = _
      rw [e2, hacc' ch, Finset.sum_range_succ _ (a + 1), ← rescale_blocks (a + 1) (sK m c b qi p) (vK m c b ch) μ μ']
      exact congrArg _ (congrArg _ (Finset.sum_congr rfl fun j _ => by
        rw [sP_eq m c t b qi (a + 1) ha hb hq hk p j, vP_eq m c t b (a + 1) ha hb hk ch j]))

/-! ## The output block -/

/-- After the last key block the output block holds, at (channel `ch`, row `p`), the attention output at
    (batch `b`, channel `ch`, position `2048 * qi + p`). -/
theorem out_block (c : Dev nD) (hQ : Finite (s := S8x256x4096) (V m c main_v0)) (hK : Finite (s := S8x256x4096) (V m c main_v1)) (hV : Finite (s := S8x256x4096) (V m c main_v2)) (hP3 : Finite (s := S1x4096x256) (m ((c : Thread nD τ).loc main_arg3))) (hP4 : Finite (s := S1x4096x256) (m ((c : Thread nD τ).loc main_arg4))) (b : Fin 8) (qi : Fin 2) (ht : 32 * b.val + 16 * qi.val + 15 < cfg0.N) (ch : Fin 256) (p : Fin 2048) :
    (outsAt0 m c (32 * b.val + 16 * qi.val + 15) ht).1 (ix3 (0 : Fin 1) ch p)
      = attn (V m c main_v0) (V m c main_v1) (V m c main_v2) (m ((c : Thread nD τ).loc main_arg3)) (m ((c : Thread nD τ).loc main_arg4))
          (ix3 b ch ⟨2048 * qi.val + p.val, by have := qi.isLt; have := p.isLt; omega⟩) := by
  have hN : cfg0.N = 256 := N_0
  have hbl := b.isLt
  have hql := qi.isLt
  let t : Fin cfg0.N := ⟨32 * b.val + 16 * qi.val + 15, ht⟩
  have h0 : ¬t.val % 16 = 0 := by show ¬(32 * b.val + 16 * qi.val + 15) % 16 = 0; omega
  have h1 : t.val % 16 = 15 := by show (32 * b.val + 16 * qi.val + 15) % 16 = 15; omega
  have hn : 32 * b.val + 16 * qi.val + 14 < cfg0.N := by omega
  have hp : t.val - 1 = 32 * b.val + 16 * qi.val + 14 := by show 32 * b.val + 16 * qi.val + 15 - 1 = _; omega
  obtain ⟨_, _, _, e3⟩ := point_C m c t h0 h1 _ hn hp
  obtain ⟨μ, hm, hl, hacc⟩ := inv m c hQ hK hV hP3 hP4 b qi 15 (by omega) ht p
  show (outsAt0 m c t.val t.isLt).1 (ix3 (0 : Fin 1) ch p) = _
  rw [e3]
  refine (out_real _ _ (0 : Fin 1) ch p _ _ (blocks_sum_ne_zero (sK m c b qi p) μ) (hacc ch) hl).trans ?_
  rw [blocks_wavg (sK m c b qi p) (vK m c b ch) μ]
  unfold attn
  refine congrArg _ ?_
  show wavg (fun k : Fin 4096 => sK m c b qi p k.val) (fun k : Fin 4096 => vK m c b ch k.val) = wavg _ _
  congr 1
  · funext k
    unfold sK
    rw [dif_pos k.isLt]
  · funext k
    unfold vK
    rw [dif_pos k.isLt]

end Cert.KernelIdeal.Inv
end
-- ==== Proof.lean ====
/-
  The kernel computes attention block by block; the reference computes it whole; over the extended reals, on finite
  inputs, they agree.

  Both programs are shown to end at ONE function of the argument arrays (Proof/Spec.lean): for batch `b`, channel `c` and
  position `n`, the softmax-weighted average over the 4096 keys `j` of the value `v b c j`, with the score
  `(∑ c', (q b c' n + qp n c') * (k b c' j + kp j c')) / 16`.
  The reference divides the plain scores by `sqrt 256 = 16`, subtracts the row maximum `M` (a real), exponentiates,
  divides by the row sum and multiplies by the values: the normalised weights' sum against the values is that average,
  whatever real `M` is (Proof/RefValue.lean over Proof/Softmax.lean).
  The kernel scales the queries by `2⁻⁴` first, runs over the keys in 16 blocks of 256 keeping a running maximum `μ`,
  the running sum `∑ exp (s - μ)` and the running weighted sum `∑ exp (s - μ) * v` of each query row, moves both sums
  to each new maximum by the factor `exp (μ - μ')`, and divides at the last block (Proof/Payload.lean, Proof/Step.lean,
  Proof/Invariant.lean): the quotient does not depend on `μ` and is the same average. Finiteness of the inputs is what
  makes every intermediate value a real, where these laws hold (Proof/FiniteInputs.lean).
  The three frames are the programs' runs with the results forgotten; nothing was rewritten between the kernel and its
  idealization, so that conjunct is `True`.
-/
import proofs.«127803_j89962384982254_2_alg».proof.Defs
import proofs.«127803_j89962384982254_2_alg».proof.Proof.Gen.Kernel
import proofs.«127803_j89962384982254_2_alg».proof.Proof.Gen.Kernel.Skeleton
import proofs.«127803_j89962384982254_2_alg».proof.Proof.Gen.Kernel.Launch
import proofs.«127803_j89962384982254_2_alg».proof.Proof.Gen.Kernel.Points
import proofs.«127803_j89962384982254_2_alg».proof.Proof.Gen.Kernel.Frame
import proofs.«127803_j89962384982254_2_alg».proof.Proof.Gen.KernelIdeal
import proofs.«127803_j89962384982254_2_alg».proof.Proof.Gen.KernelIdeal.Skeleton
import proofs.«127803_j89962384982254_2_alg».proof.Proof.Gen.KernelIdeal.Launch
import proofs.«127803_j89962384982254_2_alg».proof.Proof.Gen.KernelIdeal.Points
import proofs.«127803_j89962384982254_2_alg».proof.Proof.Gen.KernelIdeal.Frame
import proofs.«127803_j89962384982254_2_alg».proof.Proof.Gen.ReferenceIdeal
import proofs.«127803_j89962384982254_2_alg».proof.Proof.Gen.Pre_finite_inputs
import proofs.«127803_j89962384982254_2_alg».proof.Proof.Gen.ReferenceIdeal.Run
import proofs.«127803_j89962384982254_2_alg».proof.Proof.Gen.ReferenceIdeal.Read
import proofs.«127803_j89962384982254_2_alg».proof.Proof.Assembly
import proofs.«127803_j89962384982254_2_alg».proof.Proof.Invariant
import Idealize.ShloMosaic.Adequacy
import Idealize.ShloMosaic.Init

noncomputable section

namespace Cert.Proof

open Idealize.ShloMosaic Idealize.SL.Sem Cert.Kernel

theorem claim : Cert.Claim :=
  Cert.Proof.Assembly.claim_of fun m c hQ hK hV hP3 hP4 b qi ht ch p =>
    Cert.KernelIdeal.Inv.out_block m c hQ hK hV hP3 hP4 b qi ht ch p

end Cert.Proof

end
